-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x5x6 : Shape := ⟨3, ![262144, 5, 6]⟩
abbrev S6x18 : Shape := ⟨2, ![6, 18]⟩
abbrev S18 : Shape := ⟨1, ![18]⟩
abbrev S36x18 : Shape := ⟨2, ![36, 18]⟩
abbrev S54x18 : Shape := ⟨2, ![54, 18]⟩
abbrev S90x1 : Shape := ⟨2, ![90, 1]⟩
abbrev S1 : Shape := ⟨1, ![1]⟩
abbrev S_ : Shape := ⟨0, ![]⟩

class Facts : Prop where
  bcast_S_S262144x5x6 : S_.BroadcastsInDim S262144x5x6 (![] : Fin 0 → Fin S262144x5x6.rank)
  reducesTo_S262144x5x6_S_d0_1_2 : S262144x5x6.ReducesTo [0, 1, 2] S_
  h_S_ : 0 < S_.numel
  bcast_S_S6x18 : S_.BroadcastsInDim S6x18 (![] : Fin 0 → Fin S6x18.rank)
  reducesTo_S6x18_S_d0_1 : S6x18.ReducesTo [0, 1] S_
  bcast_S_S18 : S_.BroadcastsInDim S18 (![] : Fin 0 → Fin S18.rank)
  reducesTo_S18_S_d0 : S18.ReducesTo [0] S_
  bcast_S_S36x18 : S_.BroadcastsInDim S36x18 (![] : Fin 0 → Fin S36x18.rank)
  reducesTo_S36x18_S_d0_1 : S36x18.ReducesTo [0, 1] S_
  bcast_S_S54x18 : S_.BroadcastsInDim S54x18 (![] : Fin 0 → Fin S54x18.rank)
  reducesTo_S54x18_S_d0_1 : S54x18.ReducesTo [0, 1] S_
  bcast_S_S90x1 : S_.BroadcastsInDim S90x1 (![] : Fin 0 → Fin S90x1.rank)
  reducesTo_S90x1_S_d0_1 : S90x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S90x1 .f32) (main_arg8 : FVec F S1 .f32) (main_v33 : IVec S_ 1) : IVec S_ 1 :=
  let main_v34 : FVec F S90x1 .f32 := Host.absf main_arg7
  let main_cst_12 : FVec F S_ .f32 := constant S_ .f32 0x7F800000#32
  let main_v35 : FVec F S90x1 .f32 := broadcastInDim S90x1 ![] bcast_S_S90x1 main_cst_12
  let main_v36 : IVec S90x1 1 := cmpf .olt main_v34 main_v35
  let main_c_13 : IVec S_ 1 := constantI S_ 1 1#1
  let main_v37 : IVec S_ 1 := (fun x v => Host.reduce IntOp.andi x v reducesTo_S90x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S18 .f32) (main_arg5 : FVec F S54x18 .f32) (main_arg6 : FVec F S18 .f32) (main_arg7 : FVec F S90x1 .f32) (main_arg8 : FVec F S1 .f32) (main_v13 : IVec S_ 1) (main_v16 : IVec S36x18 1) : IVec S_ 1 :=
  let main_c_5 : IVec S_ 1 := constantI S_ 1 1#1
  let main_v17 : IVec S_ 1 := (fun x v => Host.reduce IntOp.andi x v reducesTo_S36x18_S_d0_1 h_S_) main_v16 main_c_5
  let main_v18 : IVec S_ 1 := andi main_v13 main_v17
  let main_v19 : FVec F S18 .f32 := Host.absf main_arg4
  let main_cst_6 : FVec F S_ .f32 := constant S_ .f32 0x7F800000#32
  let main_v20 : FVec F S18 .f32 := broadcastInDim S18 ![] bcast_S_S18 main_cst_6
  let main_v21 : IVec S18 1 := cmpf .olt main_v19 main_v20
  let main_c_7 : IVec S_ 1 := constantI S_ 1 1#1
  let main_v22 : IVec S_ 1 := (fun x v => Host.reduce IntOp.andi x v reducesTo_S18_S_d0 h_S_) main_v21 main_c_7
  let main_v23 : IVec S_ 1 := andi main_v18 main_v22
  let main_v24 : FVec F S54x18 .f32 := Host.absf main_arg5
  let main_cst_8 : FVec F S_ .f32 := constant S_ .f32 0x7F800000#32
  let main_v25 : FVec F S54x18 .f32 := broadcastInDim S54x18 ![] bcast_S_S54x18 main_cst_8
  let main_v26 : IVec S54x18 1 := cmpf .olt main_v24 main_v25
  let main_c_9 : IVec S_ 1 := constantI S_ 1 1#1
  let main_v27 : IVec S_ 1 := (fun x v => Host.reduce IntOp.andi x v reducesTo_S54x18_S_d0_1 h_S_) main_v26 main_c_9
  let main_v28 : IVec S_ 1 := andi main_v23 main_v27
  let main_v29 : FVec F S18 .f32 := Host.absf main_arg6
  let main_cst_10 : FVec F S_ .f32 := constant S_ .f32 0x7F800000#32
  let main_v30 : FVec F S18 .f32 := broadcastInDim S18 ![] bcast_S_S18 main_cst_10
  let main_v31 : IVec S18 1 := cmpf .olt main_v29 main_v30
  let main_c_11 : IVec S_ 1 := constantI S_ 1 1#1
  let main_v32 : IVec S_ 1 := (fun x v => Host.reduce IntOp.andi x v reducesTo_S18_S_d0 h_S_) main_v31 main_c_11
  let main_v33 : IVec S_ 1 := andi main_v28 main_v32
  fn_part2 (F := F) main_arg7 main_arg8 main_v33

def fn {F : FTy → Type} [FloatOps F] (main_arg0 : FVec F S262144x5x6 .f32) (main_arg1 : FVec F S6x18 .f32) (main_arg2 : FVec F S18 .f32) (main_arg3 : FVec F S36x18 .f32) (main_arg4 : FVec F S18 .f32) (main_arg5 : FVec F S54x18 .f32) (main_arg6 : FVec F S18 .f32) (main_arg7 : FVec F S90x1 .f32) (main_arg8 : FVec F S1 .f32) : IVec S_ 1 :=
  let main_v0 : FVec F S262144x5x6 .f32 := Host.absf main_arg0
  let main_cst : FVec F S_ .f32 := constant S_ .f32 0x7F800000#32
  let main_v1 : FVec F S262144x5x6 .f32 := broadcastInDim S262144x5x6 ![] bcast_S_S262144x5x6 main_cst
  let main_v2 : IVec S262144x5x6 1 := cmpf .olt main_v0 main_v1
  let main_c : IVec S_ 1 := constantI S_ 1 1#1
  let main_v3 : IVec S_ 1 := (fun x v => Host.reduce IntOp.andi x v reducesTo_S262144x5x6_S_d0_1_2 h_S_) main_v2 main_c
  let main_v4 : FVec F S6x18 .f32 := Host.absf main_arg1
  let main_cst_0 : FVec F S_ .f32 := constant S_ .f32 0x7F800000#32
  let main_v5 : FVec F S6x18 .f32 := broadcastInDim S6x18 ![] bcast_S_S6x18 main_cst_0
  let main_v6 : IVec S6x18 1 := cmpf .olt main_v4 main_v5
  let main_c_1 : IVec S_ 1 := constantI S_ 1 1#1
  let main_v7 : IVec S_ 1 := (fun x v => Host.reduce IntOp.andi x v reducesTo_S6x18_S_d0_1 h_S_) main_v6 main_c_1
  let main_v8 : IVec S_ 1 := andi main_v3 main_v7
  let main_v9 : FVec F S18 .f32 := Host.absf main_arg2
  let main_cst_2 : FVec F S_ .f32 := constant S_ .f32 0x7F800000#32
  let main_v10 : FVec F S18 .f32 := broadcastInDim S18 ![] bcast_S_S18 main_cst_2
  let main_v11 : IVec S18 1 := cmpf .olt main_v9 main_v10
  let main_c_3 : IVec S_ 1 := constantI S_ 1 1#1
  let main_v12 : IVec S_ 1 := (fun x v => Host.reduce IntOp.andi x v reducesTo_S18_S_d0 h_S_) main_v11 main_c_3
  let main_v13 : IVec S_ 1 := andi main_v8 main_v12
  let main_v14 : FVec F S36x18 .f32 := Host.absf main_arg3
  let main_cst_4 : FVec F S_ .f32 := constant S_ .f32 0x7F800000#32
  let main_v15 : FVec F S36x18 .f32 := broadcastInDim S36x18 ![] bcast_S_S36x18 main_cst_4
  let main_v16 : IVec S36x18 1 := cmpf .olt main_v14 main_v15
  fn_part1 (F := F) main_arg4 main_arg5 main_arg6 main_arg7 main_arg8 main_v13 main_v16
-- ==== Kernel.lean ====
abbrev S262144x5x6 : Shape := ⟨3, ![262144, 5, 6]⟩
abbrev S6x18 : Shape := ⟨2, ![6, 18]⟩
abbrev S18 : Shape := ⟨1, ![18]⟩
abbrev S36x18 : Shape := ⟨2, ![36, 18]⟩
abbrev S54x18 : Shape := ⟨2, ![54, 18]⟩
abbrev S90x1 : Shape := ⟨2, ![90, 1]⟩
abbrev S1 : Shape := ⟨1, ![1]⟩
abbrev S262144x1 : Shape := ⟨2, ![262144, 1]⟩
abbrev S1024x5x6 : Shape := ⟨3, ![1024, 5, 6]⟩
abbrev S1024x1 : Shape := ⟨2, ![1024, 1]⟩
abbrev S1x18 : Shape := ⟨2, ![1, 18]⟩
abbrev S1x1 : Shape := ⟨2, ![1, 1]⟩
abbrev S1024x1x6 : Shape := ⟨3, ![1024, 1, 6]⟩
abbrev S1024x6 : Shape := ⟨2, ![1024, 6]⟩
abbrev S1024x18 : Shape := ⟨2, ![1024, 18]⟩
abbrev S1024x36 : Shape := ⟨2, ![1024, 36]⟩
abbrev S1024x54 : Shape := ⟨2, ![1024, 54]⟩
abbrev S1024x90 : Shape := ⟨2, ![1024, 90]⟩

abbrev nBuf : Space → Nat
  | .hbm => 10
  | .vmem => 12
  | .smem => 0
  | _ => 0

abbrev bufTy : (tb : Table) → Fin (tcTables nBuf tb) → BufTy
  | .hbm, ⟨0, _⟩ => ⟨S262144x5x6, .f32⟩
  | .hbm, ⟨1, _⟩ => ⟨S6x18, .f32⟩
  | .hbm, ⟨2, _⟩ => ⟨S18, .f32⟩
  | .hbm, ⟨3, _⟩ => ⟨S36x18, .f32⟩
  | .hbm, ⟨4, _⟩ => ⟨S18, .f32⟩
  | .hbm, ⟨5, _⟩ => ⟨S54x18, .f32⟩
  | .hbm, ⟨6, _⟩ => ⟨S18, .f32⟩
  | .hbm, ⟨7, _⟩ => ⟨S90x1, .f32⟩
  | .hbm, ⟨8, _⟩ => ⟨S1, .f32⟩
  | .hbm, ⟨9, _⟩ => ⟨S262144x1, .f32⟩
  | .local _ .vmem, ⟨0, _⟩ => ⟨S1024x5x6, .f32⟩
  | .local _ .vmem, ⟨1, _⟩ => ⟨S1024x5x6, .f32⟩
  | .local _ .vmem, ⟨2, _⟩ => ⟨S6x18, .f32⟩
  | .local _ .vmem, ⟨3, _⟩ => ⟨S18, .f32⟩
  | .local _ .vmem, ⟨4, _⟩ => ⟨S36x18, .f32⟩
  | .local _ .vmem, ⟨5, _⟩ => ⟨S18, .f32⟩
  | .local _ .vmem, ⟨6, _⟩ => ⟨S54x18, .f32⟩
  | .local _ .vmem, ⟨7, _⟩ => ⟨S18, .f32⟩
  | .local _ .vmem, ⟨8, _⟩ => ⟨S90x1, .f32⟩
  | .local _ .vmem, ⟨9, _⟩ => ⟨S1, .f32⟩
  | .local _ .vmem, ⟨10, _⟩ => ⟨S1024x1, .f32⟩
  | .local _ .vmem, ⟨11, _⟩ => ⟨S1024x1, .f32⟩
  | _, _ => ⟨S262144x5x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x5x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S36x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S54x18 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S18 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S90x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S6x18_S6x18_0_0 : ∀ a, (![0, 0] : Fin 2 → Nat) a + S6x18.size a ≤ S6x18.size a
  h_S6x18 : 0 < S6x18.numel
  inb_S18_S18_0 : ∀ a, (![0] : Fin 1 → Nat) a + S18.size a ≤ S18.size a
  h_S18 : 0 < S18.numel
  shapeCasts_S18_S1x18 : S18.ShapeCasts S1x18
  inb_S36x18_S36x18_0_0 : ∀ a, (![0, 0] : Fin 2 → Nat) a + S36x18.size a ≤ S36x18.size a
  h_S36x18 : 0 < S36x18.numel
  inb_S54x18_S54x18_0_0 : ∀ a, (![0, 0] : Fin 2 → Nat) a + S54x18.size a ≤ S54x18.size a
  h_S54x18 : 0 < S54x18.numel
  inb_S90x1_S90x1_0_0 : ∀ a, (![0, 0] : Fin 2 → Nat) a + S90x1.size a ≤ S90x1.size a
  h_S90x1 : 0 < S90x1.numel
  inb_S1_S1_0 : ∀ a, (![0] : Fin 1 → Nat) a + S1.size a ≤ S1.size a
  h_S1 : 0 < S1.numel
  shapeCasts_S1_S1x1 : S1.ShapeCasts S1x1
  inb_S1024x5x6_S1024x5x6_0_0_0 : ∀ a, (![0, 0, 0] : Fin 3 → Nat) a + S1024x5x6.size a ≤ S1024x5x6.size a
  h_S1024x5x6 : 0 < S1024x5x6.numel
  slices_S1024x5x6_o0_0_0_S1024x1x6 : S1024x5x6.Slices ![0, 0, 0] S1024x1x6
  shapeCasts_S1024x1x6_S1024x6 : S1024x1x6.ShapeCasts S1024x6
  slices_S1024x5x6_o0_1_0_S1024x1x6 : S1024x5x6.Slices ![0, 1, 0] S1024x1x6
  slices_S1024x5x6_o0_2_0_S1024x1x6 : S1024x5x6.Slices ![0, 2, 0] S1024x1x6
  slices_S1024x5x6_o0_3_0_S1024x1x6 : S1024x5x6.Slices ![0, 3, 0] S1024x1x6
  slices_S1024x5x6_o0_4_0_S1024x1x6 : S1024x5x6.Slices ![0, 4, 0] S1024x1x6
  bitsLt_bf16_f32 : FTy.bits .bf16 < FTy.bits .f32
  broadcasts_S1x18_S1024x18 : S1x18.Broadcasts S1024x18
  concatenates_S1024x18_S1024x18_S1024x36_d1 : Shape.Concatenates [S1024x18, S1024x18] S1024x36 1
  concatenates_S1024x18_S1024x18_S1024x18_S1024x54_d1 : Shape.Concatenates [S1024x18, S1024x18, S1024x18] S1024x54 1
  concatenates_S1024x18_S1024x18_S1024x18_S1024x18_S1024x18_S1024x90_d1 : Shape.Concatenates [S1024x18, S1024x18, S1024x18, S1024x18, S1024x18] S1024x90 1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x6_S6x18_S1024x18_1_0_0_1_n_n_wf : DotDims.WF S1024x6 S6x18 S1024x18 [1] [0] [0] [1] [] []
  dot_S1024x36_S36x18_S1024x18_1_0_0_1_n_n_wf : DotDims.WF S1024x36 S36x18 S1024x18 [1] [0] [0] [1] [] []
  dot_S1024x54_S54x18_S1024x18_1_0_0_1_n_n_wf : DotDims.WF S1024x54 S54x18 S1024x18 [1] [0] [0] [1] [] []
  dot_S1024x90_S90x1_S1024x1_1_0_0_1_n_n_wf : DotDims.WF S1024x90 S90x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x5x6.size a ≤ S262144x5x6.size a
  hwx0_0 : ∀ i : grid0.Coords, EltTy.bits .f32 = 32 ∨ (Rect.block (s := S262144x5x6) S1024x5x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x18.size a ≤ S6x18.size a
  hwx0_1 : ∀ i : grid0.Coords, EltTy.bits .f32 = 32 ∨ (Rect.block (s := S6x18) S6x18.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S18.size a ≤ S18.size a
  hwx0_2 : ∀ i : grid0.Coords, EltTy.bits .f32 = 32 ∨ (Rect.block (s := S18) S18.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S36x18.size a ≤ S36x18.size a
  hwx0_3 : ∀ i : grid0.Coords, EltTy.bits .f32 = 32 ∨ (Rect.block (s := S36x18) S36x18.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S18.size a ≤ S18.size a
  hwx0_4 : ∀ i : grid0.Coords, EltTy.bits .f32 = 32 ∨ (Rect.block (s := S18) S18.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S54x18.size a ≤ S54x18.size a
  hwx0_5 : ∀ i : grid0.Coords, EltTy.bits .f32 = 32 ∨ (Rect.block (s := S54x18) S54x18.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S18.size a ≤ S18.size a
  hwx0_6 : ∀ i : grid0.Coords, EltTy.bits .f32 = 32 ∨ (Rect.block (s := S18) S18.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S90x1.size a ≤ S90x1.size a
  hwx0_7 : ∀ i : grid0.Coords, EltTy.bits .f32 = 32 ∨ (Rect.block (s := S90x1) S90x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S262144x1.size a
  hwx0_9 : ∀ i : grid0.Coords, EltTy.bits .f32 = 32 ∨ (Rect.block (s := S262144x1) S1024x1.size (cc0_transform_9 i) (hinb0_9 i)).WholeWords (EltTy.packing .f32)

variable [Facts₀]

def dot_S1024x6_S6x18_S1024x18_1_0_0_1_n_n : DotDims S1024x6 S6x18 S1024x18 where
  lhsContracting := [1]
  rhsContracting := [0]
  lhsNonContracting := [0]
  rhsNonContracting := [1]
  lhsBatch := []
  rhsBatch := []
  wf := dot_S1024x6_S6x18_S1024x18_1_0_0_1_n_n_wf
def dot_S1024x36_S36x18_S1024x18_1_0_0_1_n_n : DotDims S1024x36 S36x18 S1024x18 where
  lhsContracting := [1]
  rhsContracting := [0]
  lhsNonContracting := [0]
  rhsNonContracting := [1]
  lhsBatch := []
  rhsBatch := []
  wf := dot_S1024x36_S36x18_S1024x18_1_0_0_1_n_n_wf
def dot_S1024x54_S54x18_S1024x18_1_0_0_1_n_n : DotDims S1024x54 S54x18 S1024x18 where
  lhsContracting := [1]
  rhsContracting := [0]
  lhsNonContracting := [0]
  rhsNonContracting := [1]
  lhsBatch := []
  rhsBatch := []
  wf := dot_S1024x54_S54x18_S1024x18_1_0_0_1_n_n_wf
def dot_S1024x90_S90x1_S1024x1_1_0_0_1_n_n : DotDims S1024x90 S90x1 S1024x1 where
  lhsContracting := [1]
  rhsContracting := [0]
  lhsNonContracting := [0]
  rhsNonContracting := [1]
  lhsBatch := []
  rhsBatch := []
  wf := dot_S1024x90_S90x1_S1024x1_1_0_0_1_n_n_wf

abbrev win0_0 : Pipeline.Window sig grid0 :=
  Pipeline.Window.ofSpec (Memref.whole main_arg0) S1024x5x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x18.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S18.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S36x18.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S18.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S54x18.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S18.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S90x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x5x6 : Shape := ⟨3, ![262144, 5, 6]⟩
abbrev S6x18 : Shape := ⟨2, ![6, 18]⟩
abbrev S18 : Shape := ⟨1, ![18]⟩
abbrev S36x18 : Shape := ⟨2, ![36, 18]⟩
abbrev S54x18 : Shape := ⟨2, ![54, 18]⟩
abbrev S90x1 : Shape := ⟨2, ![90, 1]⟩
abbrev S1 : Shape := ⟨1, ![1]⟩
abbrev S262144x5x18 : Shape := ⟨3, ![262144, 5, 18]⟩
abbrev S1x1x18 : Shape := ⟨3, ![1, 1, 18]⟩
abbrev S262144x4x18 : Shape := ⟨3, ![262144, 4, 18]⟩
abbrev S262144x1x18 : Shape := ⟨3, ![262144, 1, 18]⟩
abbrev S262144x5x36 : Shape := ⟨3, ![262144, 5, 36]⟩
abbrev S262144x5x54 : Shape := ⟨3, ![262144, 5, 54]⟩
abbrev S262144x90 : Shape := ⟨2, ![262144, 90]⟩
abbrev S262144x1 : Shape := ⟨2, ![262144, 1]⟩
abbrev S1x1 : Shape := ⟨2, ![1, 1]⟩

abbrev nBuf : Space → Nat
  | .hbm => 37
  | .vmem => 0
  | .smem => 0
  | _ => 0

abbrev bufTy : (tb : Table) → Fin (tcTables nBuf tb) → BufTy
  | .hbm, ⟨0, _⟩ => ⟨S262144x5x6, .f32⟩
  | .hbm, ⟨1, _⟩ => ⟨S6x18, .f32⟩
  | .hbm, ⟨2, _⟩ => ⟨S18, .f32⟩
  | .hbm, ⟨3, _⟩ => ⟨S36x18, .f32⟩
  | .hbm, ⟨4, _⟩ => ⟨S18, .f32⟩
  | .hbm, ⟨5, _⟩ => ⟨S54x18, .f32⟩
  | .hbm, ⟨6, _⟩ => ⟨S18, .f32⟩
  | .hbm, ⟨7, _⟩ => ⟨S90x1, .f32⟩
  | .hbm, ⟨8, _⟩ => ⟨S1, .f32⟩
  | .hbm, ⟨9, _⟩ => ⟨S262144x5x18, .f32⟩
  | .hbm, ⟨10, _⟩ => ⟨S1x1x18, .f32⟩
  | .hbm, ⟨11, _⟩ => ⟨S262144x5x18, .f32⟩
  | .hbm, ⟨12, _⟩ => ⟨S262144x5x18, .f32⟩
  | .hbm, ⟨13, _⟩ => ⟨S262144x5x18, .f32⟩
  | .hbm, ⟨14, _⟩ => ⟨S262144x4x18, .f32⟩
  | .hbm, ⟨15, _⟩ => ⟨S262144x1x18, .f32⟩
  | .hbm, ⟨16, _⟩ => ⟨S262144x5x18, .f32⟩
  | .hbm, ⟨17, _⟩ => ⟨S262144x5x36, .f32⟩
  | .hbm, ⟨18, _⟩ => ⟨S262144x5x18, .f32⟩
  | .hbm, ⟨19, _⟩ => ⟨S1x1x18, .f32⟩
  | .hbm, ⟨20, _⟩ => ⟨S262144x5x18, .f32⟩
  | .hbm, ⟨21, _⟩ => ⟨S262144x5x18, .f32⟩
  | .hbm, ⟨22, _⟩ => ⟨S262144x5x18, .f32⟩
  | .hbm, ⟨23, _⟩ => ⟨S262144x1x18, .f32⟩
  | .hbm, ⟨24, _⟩ => ⟨S262144x4x18, .f32⟩
  | .hbm, ⟨25, _⟩ => ⟨S262144x5x18, .f32⟩
  | .hbm, ⟨26, _⟩ => ⟨S262144x5x54, .f32⟩
  | .hbm, ⟨27, _⟩ => ⟨S262144x5x18, .f32⟩
  | .hbm, ⟨28, _⟩ => ⟨S1x1x18, .f32⟩
  | .hbm, ⟨29, _⟩ => ⟨S262144x5x18, .f32⟩
  | .hbm, ⟨30, _⟩ => ⟨S262144x5x18, .f32⟩
  | .hbm, ⟨31, _⟩ => ⟨S262144x5x18, .f32⟩
  | .hbm, ⟨32, _⟩ => ⟨S262144x90, .f32⟩
  | .hbm, ⟨33, _⟩ => ⟨S262144x1, .f32⟩
  | .hbm, ⟨34, _⟩ => ⟨S1x1, .f32⟩
  | .hbm, ⟨35, _⟩ => ⟨S262144x1, .f32⟩
  | .hbm, ⟨36, _⟩ => ⟨S262144x1, .f32⟩
  | _, _ => ⟨S262144x5x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_v0 : Ref sig .tc := ⟨.hbm, 23, rfl⟩
abbrev main_call1_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S18_S1x1x18_2 : S18.BroadcastsInDim S1x1x18 (![2] : Fin 1 → Fin S1x1x18.rank)
  bcast_S1x1x18_S262144x5x18_0_1_2 : S1x1x18.BroadcastsInDim S262144x5x18 (![0, 1, 2] : Fin 3 → Fin S262144x5x18.rank)
  slices_S262144x5x18_S262144x4x18_0_1_0 : S262144x5x18.Slices ![0, 1, 0] S262144x4x18
  slices_S262144x5x18_S262144x1x18_0_0_0 : S262144x5x18.Slices ![0, 0, 0] S262144x1x18
  concatenates_S262144x4x18_S262144x1x18_S262144x5x18_d1 : Shape.Concatenates [S262144x4x18, S262144x1x18] S262144x5x18 1
  concatenates_S262144x5x18_S262144x5x18_S262144x5x36_d2 : Shape.Concatenates [S262144x5x18, S262144x5x18] S262144x5x36 2
  slices_S262144x5x18_S262144x1x18_0_4_0 : S262144x5x18.Slices ![0, 4, 0] S262144x1x18
  slices_S262144x5x18_S262144x4x18_0_0_0 : S262144x5x18.Slices ![0, 0, 0] S262144x4x18
  concatenates_S262144x1x18_S262144x4x18_S262144x5x18_d1 : Shape.Concatenates [S262144x1x18, S262144x4x18] S262144x5x18 1
  concatenates_S262144x5x18_S262144x5x18_S262144x5x18_S262144x5x54_d2 : Shape.Concatenates [S262144x5x18, S262144x5x18, S262144x5x18] S262144x5x54 2
  shapeCasts_S262144x5x18_S262144x90 : S262144x5x18.ShapeCasts S262144x90
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  dot_S262144x5x6_S6x18_S262144x5x18_2_0_01_1_n_n_wf : DotDims.WF S262144x5x6 S6x18 S262144x5x18 [2] [0] [0, 1] [1] [] []
  dot_S262144x5x36_S36x18_S262144x5x18_2_0_01_1_n_n_wf : DotDims.WF S262144x5x36 S36x18 S262144x5x18 [2] [0] [0, 1] [1] [] []
  dot_S262144x5x54_S54x18_S262144x5x18_2_0_01_1_n_n_wf : DotDims.WF S262144x5x54 S54x18 S262144x5x18 [2] [0] [0, 1] [1] [] []
  dot_S262144x90_S90x1_S262144x1_1_0_0_1_n_n_wf : DotDims.WF S262144x90 S90x1 S262144x1 [1] [0] [0] [1] [] []

variable [Facts₀]

def dot_S262144x5x6_S6x18_S262144x5x18_2_0_01_1_n_n : DotDims S262144x5x6 S6x18 S262144x5x18 where
  lhsContracting := [2]
  rhsContracting := [0]
  lhsNonContracting := [0, 1]
  rhsNonContracting := [1]
  lhsBatch := []
  rhsBatch := []
  wf := dot_S262144x5x6_S6x18_S262144x5x18_2_0_01_1_n_n_wf
def dot_S262144x5x36_S36x18_S262144x5x18_2_0_01_1_n_n : DotDims S262144x5x36 S36x18 S262144x5x18 where
  lhsContracting := [2]
  rhsContracting := [0]
  lhsNonContracting := [0, 1]
  rhsNonContracting := [1]
  lhsBatch := []
  rhsBatch := []
  wf := dot_S262144x5x36_S36x18_S262144x5x18_2_0_01_1_n_n_wf
def dot_S262144x5x54_S54x18_S262144x5x18_2_0_01_1_n_n : DotDims S262144x5x54 S54x18 S262144x5x18 where
  lhsContracting := [2]
  rhsContracting := [0]
  lhsNonContracting := [0, 1]
  rhsNonContracting := [1]
  lhsBatch := []
  rhsBatch := []
  wf := dot_S262144x5x54_S54x18_S262144x5x18_2_0_01_1_n_n_wf
def dot_S262144x90_S90x1_S262144x1_1_0_0_1_n_n : DotDims S262144x90 S90x1 S262144x1 where
  lhsContracting := [1]
  rhsContracting := [0]
  lhsNonContracting := [0]
  rhsNonContracting := [1]
  lhsBatch := []
  rhsBatch := []
  wf := dot_S262144x90_S90x1_S262144x1_1_0_0_1_n_n_wf

class Facts : Prop extends Facts₀ where

variable [Facts]
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«111278_j43499428773982_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibEndToEnd.lean ====
/-
  Arrays laid end to end along one axis, read at an entry.

  When `N` pieces of ONE shape, each of extent `c` along the joined axis, are laid end to end, position `k` on that axis
  falls in piece `k / c` at its own position `k % c`; the other coordinates are unchanged. This module states that for the
  last axis of a matrix (`[a, c]` pieces into `[a, w]`) and of a rank-3 array (`[a, b, c]` pieces into `[a, b, w]`), with the
  pieces given as a family over `Fin N`, and then for the literal lists of two, three and five pieces. It also reads the
  two-piece join along the MIDDLE axis of a rank-3 array — what a rotation of that axis by a fixed amount is made of: the
  first `b₁` positions come from the first piece, the rest from the second at the position less `b₁`.
  Every extent is generic; the entries may be of any type.
-/
import Idealize.ShloMosaic.Lib.ValueIdx
import Idealize.ShloMosaic.Lib.Pipeline.Value

namespace EndToEnd

open Idealize.ShloMosaic Idealize.ShloMosaic.ValueIdx

variable {α : Type}

/-- The piece-and-position reading of a position `k` on the joined axis, against pieces of extent `c`. -/
theorem div_lt {c w N : ℕ} (hw : w = N * c) (hc : 0 < c) (k : Fin w) : k.val / c < N :=
  (Nat.div_lt_iff_lt_mul hc).2 (hw ▸ k.isLt)

/-! ## Along the last axis of a matrix -/

/-- `N` matrices `[a, c]` joined along axis 1 into `[a, w]`: at `(p, k)`, piece `k / c` at `(p, k % c)`. -/
theorem cols_apply {a c w N : ℕ} (f : Fin N → ((⟨2, ![a, c]⟩ : Shape).Idx → α))
    (h : Shape.Concatenates ((List.ofFn fun n : Fin N => (⟨⟨2, ![a, c]⟩, f n⟩ : (s : Shape) × (s.Idx → α))).map (·.1))
      ⟨2, ![a, w]⟩ (1 : Fin 2))
    (hc : 0 < c) (p : Fin a) (k : Fin w) (n : Fin N) (hn : k.val / c = n.val) :
    concatenate ⟨2, ![a, w]⟩ (1 : Fin 2) (List.ofFn fun n : Fin N => (⟨⟨2, ![a, c]⟩, f n⟩ : (s : Shape) × (s.Idx → α))) h
        (ix2 p k)
      = f n (ix2 p ⟨k.val % c, Nat.mod_lt _ hc⟩) := by
  refine concatenate_ofFn_apply (t := ⟨2, ![a, w]⟩) (s₁ := ⟨2, ![a, c]⟩) (1 : Fin 2) f h rfl c rfl (ix2 p k) n hn
    (ix2 p ⟨k.val % c, Nat.mod_lt _ hc⟩) rfl fun b hb => ?_
  match b with
  | ⟨0, _⟩ => rfl
  | ⟨1, _⟩ => exact absurd rfl hb

/-! ## Along the last axis of a rank-3 array -/

/-- `N` arrays `[a, b, c]` joined along axis 2 into `[a, b, w]`: at `(p, r, k)`, piece `k / c` at `(p, r, k % c)`. -/
theorem last3_apply {a b c w N : ℕ} (f : Fin N → ((⟨3, ![a, b, c]⟩ : Shape).Idx → α))
    (h : Shape.Concatenates ((List.ofFn fun n : Fin N => (⟨⟨3, ![a, b, c]⟩, f n⟩ : (s : Shape) × (s.Idx → α))).map (·.1))
      ⟨3, ![a, b, w]⟩ (2 : Fin 3))
    (hc : 0 < c) (p : Fin a) (r : Fin b) (k : Fin w) (n : Fin N) (hn : k.val / c = n.val) :
    concatenate ⟨3, ![a, b, w]⟩ (2 : Fin 3) (List.ofFn fun n : Fin N => (⟨⟨3, ![a, b, c]⟩, f n⟩ : (s : Shape) × (s.Idx → α))) h
        (ix3 p r k)
      = f n (ix3 p r ⟨k.val % c, Nat.mod_lt _ hc⟩) := by
  refine concatenate_ofFn_apply (t := ⟨3, ![a, b, w]⟩) (s₁ := ⟨3, ![a, b, c]⟩) (2 : Fin 3) f h rfl c rfl (ix3 p r k) n hn
    (ix3 p r ⟨k.val % c, Nat.mod_lt _ hc⟩) rfl fun d hd => ?_
  match d with
  | ⟨0, _⟩ => rfl
  | ⟨1, _⟩ => rfl
  | ⟨2, _⟩ => exact absurd rfl hd

/-! ## Two pieces along the middle axis of a rank-3 array -/

/-- `[a, b₁, c]` and `[a, b₂, c]` joined along axis 1 into `[a, b, c]`, at a middle position inside the first piece. -/
theorem mid_left {a b₁ b₂ b c : ℕ} (x₁ : (⟨3, ![a, b₁, c]⟩ : Shape).Idx → α) (x₂ : (⟨3, ![a, b₂, c]⟩ : Shape).Idx → α)
    (h : Shape.Concatenates [⟨3, ![a, b₁, c]⟩, ⟨3, ![a, b₂, c]⟩] ⟨3, ![a, b, c]⟩ (1 : Fin 3))
    (p : Fin a) (r : Fin b) (q : Fin c) (hr : r.val < b₁) :
    concatenate ⟨3, ![a, b, c]⟩ (1 : Fin 3) [⟨⟨3, ![a, b₁, c]⟩, x₁⟩, ⟨⟨3, ![a, b₂, c]⟩, x₂⟩] h (ix3 p r q)
      = x₁ (ix3 p ⟨r.val, hr⟩ q) := by
  refine concatenate_pair_apply_left (t := ⟨3, ![a, b, c]⟩) (s₁ := ⟨3, ![a, b₁, c]⟩) (s₂ := ⟨3, ![a, b₂, c]⟩) (1 : Fin 3) x₁ x₂ h
    (ix3 p r q) rfl (ix3 p ⟨r.val, hr⟩ q) fun d => ?_
  match d with
  | ⟨0, _⟩ => rfl
  | ⟨1, _⟩ => rfl
  | ⟨2, _⟩ => rfl

/-- The same at a middle position past the first piece: the second piece at the position less `b₁`. -/
theorem mid_right {a b₁ b₂ b c : ℕ} (x₁ : (⟨3, ![a, b₁, c]⟩ : Shape).Idx → α) (x₂ : (⟨3, ![a, b₂, c]⟩ : Shape).Idx → α)
    (h : Shape.Concatenates [⟨3, ![a, b₁, c]⟩, ⟨3, ![a, b₂, c]⟩] ⟨3, ![a, b, c]⟩ (1 : Fin 3))
    (p : Fin a) (r : Fin b) (q : Fin c) (hr : b₁ ≤ r.val) (hr₂ : r.val - b₁ < b₂) :
    concatenate ⟨3, ![a, b, c]⟩ (1 : Fin 3) [⟨⟨3, ![a, b₁, c]⟩, x₁⟩, ⟨⟨3, ![a, b₂, c]⟩, x₂⟩] h (ix3 p r q)
      = x₂ (ix3 p ⟨r.val - b₁, hr₂⟩ q) := by
  refine concatenate_pair_apply_right (t := ⟨3, ![a, b, c]⟩) (s₁ := ⟨3, ![a, b₁, c]⟩) (s₂ := ⟨3, ![a, b₂, c]⟩) (1 : Fin 3) x₁ x₂ h
    (ix3 p r q) rfl rfl (ix3 p ⟨r.val - b₁, hr₂⟩ q) (fun d hd => ?_) ?_
  · match d with
    | ⟨0, _⟩ => rfl
    | ⟨1, _⟩ => exact absurd rfl hd
    | ⟨2, _⟩ => rfl
  · show r.val - b₁ + b₁ = r.val
    omega

end EndToEnd
-- ==== Proof.RingSpec.lean ====
/-
  The network both programs compute, for one batch row, on the extended reals.

  A row is five nodes on a ring, each with six features. Every node is embedded by one dense layer into eighteen
  hidden units, `h n = tanh (x n · Wf + bf)`. Edge `n` joins node `n` to its successor on the ring and carries the
  message `M n = tanh ([h n, h (n+1)] · Wm + bm)`, the two hidden vectors laid end to end. Node `n` is then updated from
  the message of the edge that ARRIVES at it, the one of its predecessor, and from its own hidden vector twice:
  `U n = tanh ([M (n-1), h n, h n] · Wu + bu)`. The row's result is the five updated vectors laid end to end, against
  the readout column, plus the readout bias. Successor and predecessor wrap around the ring.

  Vectors laid end to end are read by position: entry `k` of `N` pieces of eighteen numbers is piece `k / 18` at
  `k % 18`. Nothing here needs the entries to be finite: the two programs add up the same products in the same order
  of the contracted coordinate, so the only laws used anywhere are reindexings.
-/
import Idealize.ShloMosaic.PureOps.Ideal
import Idealize.ShloMosaic.Lib.ValueIdx

noncomputable section

namespace Ring

open Idealize.ShloMosaic Idealize.ShloMosaic.ValueIdx

/-- One dense layer at output unit `q`: `tanh` of the inputs against column `q` of the weights, plus the bias. -/
def dense {K N : ℕ} (inp : Fin K → EReal) (W : Fin K → Fin N → EReal) (b : Fin N → EReal) (q : Fin N) : EReal :=
  Ideal.tanh (∑ k : Fin K, inp k * W k q + b q)

/-- Two vectors of eighteen numbers laid end to end, at position `k`. -/
def cat2 (pc : Fin 2 → Fin 18 → EReal) (k : Fin 36) : EReal :=
  pc ⟨k.val / 18, by have := k.isLt; omega⟩ ⟨k.val % 18, Nat.mod_lt _ (by decide)⟩

/-- Three vectors of eighteen numbers laid end to end, at position `k`. -/
def cat3 (pc : Fin 3 → Fin 18 → EReal) (k : Fin 54) : EReal :=
  pc ⟨k.val / 18, by have := k.isLt; omega⟩ ⟨k.val % 18, Nat.mod_lt _ (by decide)⟩

/-- Five vectors of eighteen numbers laid end to end, at position `k`. -/
def cat5 (pc : Fin 5 → Fin 18 → EReal) (k : Fin 90) : EReal :=
  pc ⟨k.val / 18, by have := k.isLt; omega⟩ ⟨k.val % 18, Nat.mod_lt _ (by decide)⟩

/-- The next node on the ring. -/
def nxt (n : Fin 5) : Fin 5 := if h : n.val < 4 then ⟨n.val + 1, by omega⟩ else ⟨0, by decide⟩

/-- The previous node on the ring. -/
def prv (n : Fin 5) : Fin 5 := if h : n.val < 1 then ⟨4, by decide⟩ else ⟨n.val - 1, by have := n.isLt; omega⟩

/-- The embedding of node `n`. -/
def hid (X : Fin 5 → Fin 6 → EReal) (Wf : Fin 6 → Fin 18 → EReal) (bf : Fin 18 → EReal) (n : Fin 5) : Fin 18 → EReal :=
  dense (X n) Wf bf

/-- The message of edge `n`, from node `n` and its successor. -/
def msg (h : Fin 5 → Fin 18 → EReal) (Wm : Fin 36 → Fin 18 → EReal) (bm : Fin 18 → EReal) (n : Fin 5) : Fin 18 → EReal :=
  dense (cat2 ![h n, h (nxt n)]) Wm bm

/-- The update of node `n`, from its predecessor's edge and its own embedding twice. -/
def upd (M h : Fin 5 → Fin 18 → EReal) (Wu : Fin 54 → Fin 18 → EReal) (bu : Fin 18 → EReal) (n : Fin 5) : Fin 18 → EReal :=
  dense (cat3 ![M (prv n), h n, h n]) Wu bu

/-- The readout of the five updated vectors. -/
def readout (U : Fin 5 → Fin 18 → EReal) (Wr : Fin 90 → EReal) (br : EReal) : EReal :=
  ∑ k : Fin 90, cat5 U k * Wr k + br

/-- One row's result. -/
def net (X : Fin 5 → Fin 6 → EReal) (Wf : Fin 6 → Fin 18 → EReal) (bf : Fin 18 → EReal)
    (Wm : Fin 36 → Fin 18 → EReal) (bm : Fin 18 → EReal) (Wu : Fin 54 → Fin 18 → EReal) (bu : Fin 18 → EReal)
    (Wr : Fin 90 → EReal) (br : EReal) : EReal :=
  readout (upd (msg (hid X Wf bf) Wm bm) (hid X Wf bf) Wu bu) Wr br

/-! ## The whole result array as one function of the argument arrays -/

abbrev SX : Shape := ⟨3, ![262144, 5, 6]⟩
abbrev SWf : Shape := ⟨2, ![6, 18]⟩
abbrev SB : Shape := ⟨1, ![18]⟩
abbrev SWm : Shape := ⟨2, ![36, 18]⟩
abbrev SWu : Shape := ⟨2, ![54, 18]⟩
abbrev SWr : Shape := ⟨2, ![90, 1]⟩
abbrev SBr : Shape := ⟨1, ![1]⟩
abbrev SOut : Shape := ⟨2, ![262144, 1]⟩

/-- Row `p` of an `[a, 5, 6]` array, as nodes by features. -/
abbrev nodes {a : ℕ} (x : (⟨3, ![a, 5, 6]⟩ : Shape).Idx → EReal) (p : Fin a) : Fin 5 → Fin 6 → EReal :=
  fun n f => x (ix3 p n f)

/-- A matrix read by its two coordinates. -/
abbrev mat {K N : ℕ} (W : (⟨2, ![K, N]⟩ : Shape).Idx → EReal) : Fin K → Fin N → EReal := fun k j => W (ix2 k j)

/-- A vector read by its coordinate. -/
abbrev vec {N : ℕ} (v : (⟨1, ![N]⟩ : Shape).Idx → EReal) : Fin N → EReal := fun j => v (ix1 j)

/-- The one column of a `[K, 1]` matrix. -/
abbrev col {K : ℕ} (W : (⟨2, ![K, 1]⟩ : Shape).Idx → EReal) : Fin K → EReal := fun k => W (ix2 k (0 : Fin 1))

/-- Row `b` of the result, from the argument arrays read by coordinates. -/
def row (x : SX.Idx → EReal) (Wf : SWf.Idx → EReal) (bf : SB.Idx → EReal) (Wm : SWm.Idx → EReal) (bm : SB.Idx → EReal)
    (Wu : SWu.Idx → EReal) (bu : SB.Idx → EReal) (Wr : SWr.Idx → EReal) (br : SBr.Idx → EReal) (b : Fin 262144) : EReal :=
  net (nodes x b) (mat Wf) (vec bf) (mat Wm) (vec bm) (mat Wu) (vec bu) (col Wr) (br (ix1 (0 : Fin 1)))

/-- The result array: entry `(b, 0)` is row `b`'s result. -/
def G (x : SX.Idx → EReal) (Wf : SWf.Idx → EReal) (bf : SB.Idx → EReal) (Wm : SWm.Idx → EReal) (bm : SB.Idx → EReal)
    (Wu : SWu.Idx → EReal) (bu : SB.Idx → EReal) (Wr : SWr.Idx → EReal) (br : SBr.Idx → EReal) : SOut.Idx → EReal :=
  fun i => row x Wf bf Wm bm Wu bu Wr br ⟨(i 0).val, (i 0).isLt⟩

theorem G_ix2 (x : SX.Idx → EReal) (Wf : SWf.Idx → EReal) (bf : SB.Idx → EReal) (Wm : SWm.Idx → EReal) (bm : SB.Idx → EReal)
    (Wu : SWu.Idx → EReal) (bu : SB.Idx → EReal) (Wr : SWr.Idx → EReal) (br : SBr.Idx → EReal) (b : Fin 262144) (u : Fin 1) :
    G x Wf bf Wm bm Wu bu Wr br (ix2 b u) = row x Wf bf Wm bm Wu bu Wr br b := rfl

end Ring

end
-- ==== Proof.TileLayers.lean ====
/-
  The layers of the ring network as a tile body writes them, read at one row.

  A tile holds `a` batch rows. Each layer of the body is a matrix product of the tile's current values, cast to a
  narrower float format, against a weight matrix cast the same way, accumulated into zero, plus a bias row repeated
  down the tile, under `tanh`. On the extended reals the casts are the identity and the product at `(p, q)` is the sum
  over the contracted coordinate of row `p` against column `q`, so a layer at `(p, q)` is the dense layer of the
  specification applied to whatever row `p` of the input reads as. The inputs are: one node's features, cut out of the
  `[a, 5, 6]` block and flattened; or hidden vectors of several nodes laid end to end along the columns, which at column
  `k` read piece `k / 18` at `k % 18`. Every lemma here is about ONE row `p`: nothing mixes rows.
-/
import Idealize.ShloMosaic.PureOps.Ideal.Laws
import Idealize.ShloMosaic.Lib.ValueIdx
import Idealize.ShloMosaic.Lib.ValueLayout
import Idealize.ShloMosaic.Lib.Pipeline.Value
import proofs.«111278_j43499428773982_2_alg».proof.Proof.LibDotRecord
import proofs.«111278_j43499428773982_2_alg».proof.Proof.LibEndToEnd
import proofs.«111278_j43499428773982_2_alg».proof.Proof.RingSpec

namespace Ring.Tile

open Idealize.ShloMosaic Idealize.ShloMosaic.ValueIdx

variable {a : ℕ}

/-! ## Inputs of a layer at a row -/

/-- Node `n` of an `[a, m, c]` block, cut out along the middle axis at the literal offset `o = n` and flattened to
    `[a, c]`: at `(p, f)` the block at `(p, n, f)`. -/
theorem node_apply {α : Type} {m c : ℕ} (o : ℕ) (x : (⟨3, ![a, m, c]⟩ : Shape).Idx → α)
    (hs : (⟨3, ![a, m, c]⟩ : Shape).Slices ![0, o, 0] ⟨3, ![a, 1, c]⟩)
    (hc : (⟨3, ![a, 1, c]⟩ : Shape).ShapeCasts ⟨2, ![a, c]⟩) (p : Fin a) (f : Fin c) (n : Fin m) (hn : n.val = o) :
    shapeCast ⟨2, ![a, c]⟩ (extractStridedSlice ⟨3, ![a, 1, c]⟩ ![0, o, 0] x hs) hc (ix2 p f) = x (ix3 p n f) := by
  refine (shapeCast_apply _ hc (ix2 p f) (ix3 p (0 : Fin 1) f) ?_).trans
    (slice3_axis1_apply o x hs p (0 : Fin 1) f n (by rw [hn]; rfl))
  rw [Shape.rowMajor_val_three, Shape.rowMajor_val_two]
  show (p.val * 1 + 0) * c + f.val = p.val * c + f.val
  rw [Nat.mul_one, Nat.add_zero]

/-- A bias vector `[N]` recast to the row `[1, N]`, at `(0, q)`. -/
theorem biasRow_apply {α : Type} {N : ℕ} (v : (⟨1, ![N]⟩ : Shape).Idx → α) (h : (⟨1, ![N]⟩ : Shape).ShapeCasts ⟨2, ![1, N]⟩)
    (q : Fin N) : shapeCast ⟨2, ![1, N]⟩ v h (ix2 (0 : Fin 1) q) = v (ix1 q) :=
  shapeCast_a_1a_apply v h 0 q

/-- Which of two pieces, at a row. -/
theorem pick2 (A B : (⟨2, ![a, 18]⟩ : Shape).Idx → EReal) (p : Fin a) (u v : Fin 18 → EReal)
    (hA : ∀ j, A (ix2 p j) = u j) (hB : ∀ j, B (ix2 p j) = v j) (n : Fin 2) (j : Fin 18) :
    (![A, B] : Fin 2 → (⟨2, ![a, 18]⟩ : Shape).Idx → EReal) n (ix2 p j) = (![u, v] : Fin 2 → Fin 18 → EReal) n j := by
  match n with
  | ⟨0, _⟩ => exact hA j
  | ⟨1, _⟩ => exact hB j

/-- Which of three pieces, at a row. -/
theorem pick3 (A B C : (⟨2, ![a, 18]⟩ : Shape).Idx → EReal) (p : Fin a) (u v w : Fin 18 → EReal)
    (hA : ∀ j, A (ix2 p j) = u j) (hB : ∀ j, B (ix2 p j) = v j) (hC : ∀ j, C (ix2 p j) = w j) (n : Fin 3) (j : Fin 18) :
    (![A, B, C] : Fin 3 → (⟨2, ![a, 18]⟩ : Shape).Idx → EReal) n (ix2 p j) = (![u, v, w] : Fin 3 → Fin 18 → EReal) n j := by
  match n with
  | ⟨0, _⟩ => exact hA j
  | ⟨1, _⟩ => exact hB j
  | ⟨2, _⟩ => exact hC j

/-- Which of five pieces, at a row. -/
theorem pick5 (A0 A1 A2 A3 A4 : (⟨2, ![a, 18]⟩ : Shape).Idx → EReal) (p : Fin a) (U : Fin 5 → Fin 18 → EReal)
    (h0 : ∀ j, A0 (ix2 p j) = U 0 j) (h1 : ∀ j, A1 (ix2 p j) = U 1 j) (h2 : ∀ j, A2 (ix2 p j) = U 2 j)
    (h3 : ∀ j, A3 (ix2 p j) = U 3 j) (h4 : ∀ j, A4 (ix2 p j) = U 4 j) (n : Fin 5) (j : Fin 18) :
    (![A0, A1, A2, A3, A4] : Fin 5 → (⟨2, ![a, 18]⟩ : Shape).Idx → EReal) n (ix2 p j) = U n j := by
  match n with
  | ⟨0, _⟩ => exact h0 j
  | ⟨1, _⟩ => exact h1 j
  | ⟨2, _⟩ => exact h2 j
  | ⟨3, _⟩ => exact h3 j
  | ⟨4, _⟩ => exact h4 j

/-- Two hidden vectors laid end to end along the columns, at row `p` and column `k`. -/
theorem cat2_apply (A B : (⟨2, ![a, 18]⟩ : Shape).Idx → EReal)
    (hcat : Shape.Concatenates [⟨2, ![a, 18]⟩, ⟨2, ![a, 18]⟩] ⟨2, ![a, 36]⟩ (1 : Fin 2)) (p : Fin a)
    (u v : Fin 18 → EReal) (hA : ∀ j, A (ix2 p j) = u j) (hB : ∀ j, B (ix2 p j) = v j) (k : Fin 36) :
    concatenate ⟨2, ![a, 36]⟩ (1 : Fin 2) [⟨⟨2, ![a, 18]⟩, A⟩, ⟨⟨2, ![a, 18]⟩, B⟩] hcat (ix2 p k) = Ring.cat2 ![u, v] k :=
  (EndToEnd.cols_apply (![A, B] : Fin 2 → (⟨2, ![a, 18]⟩ : Shape).Idx → EReal) hcat (by decide) p k
      ⟨k.val / 18, by have := k.isLt; omega⟩ rfl).trans (pick2 A B p u v hA hB _ _)

/-- Three hidden vectors laid end to end along the columns, at row `p` and column `k`. -/
theorem cat3_apply (A B C : (⟨2, ![a, 18]⟩ : Shape).Idx → EReal)
    (hcat : Shape.Concatenates [⟨2, ![a, 18]⟩, ⟨2, ![a, 18]⟩, ⟨2, ![a, 18]⟩] ⟨2, ![a, 54]⟩ (1 : Fin 2)) (p : Fin a)
    (u v w : Fin 18 → EReal) (hA : ∀ j, A (ix2 p j) = u j) (hB : ∀ j, B (ix2 p j) = v j) (hC : ∀ j, C (ix2 p j) = w j)
    (k : Fin 54) :
    concatenate ⟨2, ![a, 54]⟩ (1 : Fin 2) [⟨⟨2, ![a, 18]⟩, A⟩, ⟨⟨2, ![a, 18]⟩, B⟩, ⟨⟨2, ![a, 18]⟩, C⟩] hcat (ix2 p k)
      = Ring.cat3 ![u, v, w] k :=
  (EndToEnd.cols_apply (![A, B, C] : Fin 3 → (⟨2, ![a, 18]⟩ : Shape).Idx → EReal) hcat (by decide) p k
      ⟨k.val / 18, by have := k.isLt; omega⟩ rfl).trans (pick3 A B C p u v w hA hB hC _ _)

/-- Five hidden vectors laid end to end along the columns, at row `p` and column `k`. -/
theorem cat5_apply (A0 A1 A2 A3 A4 : (⟨2, ![a, 18]⟩ : Shape).Idx → EReal)
    (hcat : Shape.Concatenates [⟨2, ![a, 18]⟩, ⟨2, ![a, 18]⟩, ⟨2, ![a, 18]⟩, ⟨2, ![a, 18]⟩, ⟨2, ![a, 18]⟩] ⟨2, ![a, 90]⟩
      (1 : Fin 2)) (p : Fin a) (U : Fin 5 → Fin 18 → EReal)
    (h0 : ∀ j, A0 (ix2 p j) = U 0 j) (h1 : ∀ j, A1 (ix2 p j) = U 1 j) (h2 : ∀ j, A2 (ix2 p j) = U 2 j)
    (h3 : ∀ j, A3 (ix2 p j) = U 3 j) (h4 : ∀ j, A4 (ix2 p j) = U 4 j) (k : Fin 90) :
    concatenate ⟨2, ![a, 90]⟩ (1 : Fin 2)
        [⟨⟨2, ![a, 18]⟩, A0⟩, ⟨⟨2, ![a, 18]⟩, A1⟩, ⟨⟨2, ![a, 18]⟩, A2⟩, ⟨⟨2, ![a, 18]⟩, A3⟩, ⟨⟨2, ![a, 18]⟩, A4⟩] hcat (ix2 p k)
      = Ring.cat5 U k :=
  (EndToEnd.cols_apply (![A0, A1, A2, A3, A4] : Fin 5 → (⟨2, ![a, 18]⟩ : Shape).Idx → EReal) hcat (by decide) p k
      ⟨k.val / 18, by have := k.isLt; omega⟩ rfl).trans (pick5 A0 A1 A2 A3 A4 p U h0 h1 h2 h3 h4 _ _)

/-! ## A product and a layer at a row -/

section Layers
variable {K N : ℕ} {ψ : FTy}

/-- The tile against a weight matrix, both cast to a narrower format, into zero: at `(p, q)` the sum over the
    contracted coordinate of what row `p` reads as, times column `q`. -/
theorem mat_apply (d : DotDims ⟨2, ![a, K]⟩ ⟨2, ![K, N]⟩ ⟨2, ![a, N]⟩)
    (h1 : d.lhsContracting = [1]) (h2 : d.rhsContracting = [0]) (h3 : d.lhsNonContracting = [0])
    (h4 : d.rhsNonContracting = [1]) (h5 : d.lhsBatch = []) (h6 : d.rhsBatch = [])
    (inp : FVec Ideal ⟨2, ![a, K]⟩ .f32) (W : FVec Ideal ⟨2, ![K, N]⟩ .f32) (hb : ψ.bits < FTy.bits .f32)
    (p : Fin a) (q : Fin N) (iv : Fin K → EReal) (hi : ∀ k, inp (ix2 p k) = iv k) :
    matmul d none (truncf ψ inp hb) (truncf ψ W hb) (constant ⟨2, ![a, N]⟩ .f32 0x00000000#32) (ix2 p q)
      = ∑ k : Fin K, iv k * W (ix2 k q) :=
  (DotRecord.matmul_zero_apply d h1 h2 h3 h4 h5 h6 (truncf ψ inp hb) (truncf ψ W hb) none p q).trans
    (Finset.sum_congr rfl fun k _ => congrArg (· * W (ix2 k q)) (hi k))

/-- A bias row repeated down the tile, at `(p, q)`. -/
theorem bias_apply (bias : FVec Ideal ⟨2, ![1, N]⟩ .f32) (hbc : (⟨2, ![1, N]⟩ : Shape).Broadcasts ⟨2, ![a, N]⟩)
    (p : Fin a) (q : Fin N) (bv : Fin N → EReal) (hbv : ∀ j, bias (ix2 (0 : Fin 1) j) = bv j) :
    broadcastTo ⟨2, ![a, N]⟩ bias hbc (ix2 p q) = bv q :=
  (broadcastTo_1b_ab_apply bias hbc p q).trans (hbv q)

/-- One layer of the body at `(p, q)`: the dense layer of what row `p` of the input reads as. -/
theorem dense_apply (d : DotDims ⟨2, ![a, K]⟩ ⟨2, ![K, N]⟩ ⟨2, ![a, N]⟩)
    (h1 : d.lhsContracting = [1]) (h2 : d.rhsContracting = [0]) (h3 : d.lhsNonContracting = [0])
    (h4 : d.rhsNonContracting = [1]) (h5 : d.lhsBatch = []) (h6 : d.rhsBatch = [])
    (inp : FVec Ideal ⟨2, ![a, K]⟩ .f32) (W : FVec Ideal ⟨2, ![K, N]⟩ .f32) (bias : FVec Ideal ⟨2, ![1, N]⟩ .f32)
    (hb : ψ.bits < FTy.bits .f32) (hbc : (⟨2, ![1, N]⟩ : Shape).Broadcasts ⟨2, ![a, N]⟩)
    (p : Fin a) (q : Fin N) (iv : Fin K → EReal) (bv : Fin N → EReal)
    (hi : ∀ k, inp (ix2 p k) = iv k) (hbv : ∀ j, bias (ix2 (0 : Fin 1) j) = bv j) :
    tanh (addf (matmul d none (truncf ψ inp hb) (truncf ψ W hb) (constant ⟨2, ![a, N]⟩ .f32 0x00000000#32))
        (broadcastTo ⟨2, ![a, N]⟩ bias hbc)) (ix2 p q)
      = Ring.dense iv (fun k j => W (ix2 k j)) bv q :=
  congrArg Ideal.tanh (congrArg₂ (· + ·) (mat_apply d h1 h2 h3 h4 h5 h6 inp W hb p q iv hi)
    (bias_apply bias hbc p q bv hbv))

end Layers

end Ring.Tile
-- ==== Proof.Payload.lean ====
/-
  The tile body's stored value, read at one row.

  The body computes, for a tile of 1024 batch rows, the ring network of the specification row by row: the five node
  embeddings, the five edge messages, the five node updates and the readout. Its value is printed as one term over
  named sub-terms — the bias rows, two of the node slices, the embeddings, the messages, the first update's product —
  and this module reads each sub-term at row `p` as the corresponding piece of the specification, from what its
  operands read as at that row. Node and edge numbers are literals in the body, so the successor and predecessor on the
  ring are computed: edge `n` joins `n` and `n + 1` (edge 4 joins 4 and 0), node `n` hears edge `n - 1` (node 0 hears
  edge 4). The last theorem puts the pieces together: entry `(p, 0)` of the stored value is the network applied to row
  `p` of the feature block and to the weights.
-/
import proofs.«111278_j43499428773982_2_alg».proof.Proof.Gen.KernelIdeal.Skeleton
import proofs.«111278_j43499428773982_2_alg».proof.Proof.TileLayers

noncomputable section

namespace Cert.KernelIdeal.Body

open Cert.KernelIdeal Cert.KernelIdeal.Gen Idealize.ShloMosaic Idealize.ShloMosaic.ValueIdx

variable (p : Fin 1024)

/-! ## Bias rows and node slices -/

theorem pay2_at (v1 : Vec Ideal S18 .f32) (q : Fin 18) : k0_pay2 v1 (ix2 (0 : Fin 1) q) = Ring.vec v1 q := by
  unfold k0_pay2; exact Ring.Tile.biasRow_apply v1 _ q

theorem pay3_at (v4 : Vec Ideal S18 .f32) (q : Fin 18) : k0_pay3 v4 (ix2 (0 : Fin 1) q) = Ring.vec v4 q := by
  unfold k0_pay3; exact Ring.Tile.biasRow_apply v4 _ q

theorem pay4_at (v7 : Vec Ideal S18 .f32) (q : Fin 18) : k0_pay4 v7 (ix2 (0 : Fin 1) q) = Ring.vec v7 q := by
  unfold k0_pay4; exact Ring.Tile.biasRow_apply v7 _ q

theorem pay5_at (v10 : Vec Ideal S1 .f32) : k0_pay5 v10 (ix2 (0 : Fin 1) (0 : Fin 1)) = v10 (ix1 (0 : Fin 1)) := by
  unfold k0_pay5; exact Ring.Tile.biasRow_apply v10 _ 0

theorem pay6_at (v12 : Vec Ideal S1024x5x6 .f32) (f : Fin 6) : k0_pay6 v12 (ix2 p f) = Ring.nodes v12 p 3 f := by
  unfold k0_pay6; exact Ring.Tile.node_apply 3 v12 _ _ p f 3 rfl

theorem pay7_at (v12 : Vec Ideal S1024x5x6 .f32) (f : Fin 6) : k0_pay7 v12 (ix2 p f) = Ring.nodes v12 p 4 f := by
  unfold k0_pay7; exact Ring.Tile.node_apply 4 v12 _ _ p f 4 rfl

/-! ## The embeddings -/

theorem pay8_at (v0 : Vec Ideal S6x18 .f32) (v1 : Vec Ideal S18 .f32) (v12 : Vec Ideal S1024x5x6 .f32) (q : Fin 18) :
    k0_pay8 v0 v1 v12 (ix2 p q) = Ring.hid (Ring.nodes v12 p) (Ring.mat v0) (Ring.vec v1) 0 q := by
  unfold k0_pay8
  exact Ring.Tile.dense_apply _ rfl rfl rfl rfl rfl rfl _ v0 _ _ _ p q _ _
    (fun f => Ring.Tile.node_apply 0 v12 _ _ p f 0 rfl) (pay2_at v1)

theorem pay9_at (v0 : Vec Ideal S6x18 .f32) (v1 : Vec Ideal S18 .f32) (v12 : Vec Ideal S1024x5x6 .f32) (q : Fin 18) :
    k0_pay9 v0 v1 v12 (ix2 p q) = Ring.hid (Ring.nodes v12 p) (Ring.mat v0) (Ring.vec v1) 1 q := by
  unfold k0_pay9
  exact Ring.Tile.dense_apply _ rfl rfl rfl rfl rfl rfl _ v0 _ _ _ p q _ _
    (fun f => Ring.Tile.node_apply 1 v12 _ _ p f 1 rfl) (pay2_at v1)

theorem pay10_at (v0 : Vec Ideal S6x18 .f32) (v1 : Vec Ideal S18 .f32) (v12 : Vec Ideal S1024x5x6 .f32) (q : Fin 18) :
    k0_pay10 v0 v1 v12 (ix2 p q) = Ring.hid (Ring.nodes v12 p) (Ring.mat v0) (Ring.vec v1) 2 q := by
  unfold k0_pay10
  exact Ring.Tile.dense_apply _ rfl rfl rfl rfl rfl rfl _ v0 _ _ _ p q _ _
    (fun f => Ring.Tile.node_apply 2 v12 _ _ p f 2 rfl) (pay2_at v1)

theorem pay11_at (v0 : Vec Ideal S6x18 .f32) (v2 : FVec Ideal S1x18 .f32) (v20 : FVec Ideal S1024x6 .f32)
    (iv : Fin 6 → EReal) (bv : Fin 18 → EReal) (hi : ∀ f, v20 (ix2 p f) = iv f)
    (hb : ∀ j, v2 (ix2 (0 : Fin 1) j) = bv j) (q : Fin 18) :
    k0_pay11 v0 v2 v20 (ix2 p q) = Ring.dense iv (Ring.mat v0) bv q := by
  unfold k0_pay11
  exact Ring.Tile.dense_apply _ rfl rfl rfl rfl rfl rfl v20 v0 v2 _ _ p q iv bv hi hb

theorem pay12_at (v0 : Vec Ideal S6x18 .f32) (v2 : FVec Ideal S1x18 .f32) (v22 : FVec Ideal S1024x6 .f32)
    (iv : Fin 6 → EReal) (bv : Fin 18 → EReal) (hi : ∀ f, v22 (ix2 p f) = iv f)
    (hb : ∀ j, v2 (ix2 (0 : Fin 1) j) = bv j) (q : Fin 18) :
    k0_pay12 v0 v2 v22 (ix2 p q) = Ring.dense iv (Ring.mat v0) bv q := by
  unfold k0_pay12
  exact Ring.Tile.dense_apply _ rfl rfl rfl rfl rfl rfl v22 v0 v2 _ _ p q iv bv hi hb

/-! ## The messages -/

theorem pay13_at (v3 : Vec Ideal S36x18 .f32) (v5 : FVec Ideal S1x18 .f32) (v28 v34 : FVec Ideal S1024x18 .f32)
    (u v bv : Fin 18 → EReal) (h28 : ∀ j, v28 (ix2 p j) = u j) (h34 : ∀ j, v34 (ix2 p j) = v j)
    (hb : ∀ j, v5 (ix2 (0 : Fin 1) j) = bv j) (q : Fin 18) :
    k0_pay13 v3 v5 v28 v34 (ix2 p q) = Ring.dense (Ring.cat2 ![u, v]) (Ring.mat v3) bv q := by
  unfold k0_pay13
  exact Ring.Tile.dense_apply _ rfl rfl rfl rfl rfl rfl _ v3 v5 _ _ p q _ bv
    (Ring.Tile.cat2_apply v28 v34 _ p u v h28 h34) hb

theorem pay14_at (v3 : Vec Ideal S36x18 .f32) (v5 : FVec Ideal S1x18 .f32) (v34 v40 : FVec Ideal S1024x18 .f32)
    (u v bv : Fin 18 → EReal) (h34 : ∀ j, v34 (ix2 p j) = u j) (h40 : ∀ j, v40 (ix2 p j) = v j)
    (hb : ∀ j, v5 (ix2 (0 : Fin 1) j) = bv j) (q : Fin 18) :
    k0_pay14 v3 v5 v34 v40 (ix2 p q) = Ring.dense (Ring.cat2 ![u, v]) (Ring.mat v3) bv q := by
  unfold k0_pay14
  exact Ring.Tile.dense_apply _ rfl rfl rfl rfl rfl rfl _ v3 v5 _ _ p q _ bv
    (Ring.Tile.cat2_apply v34 v40 _ p u v h34 h40) hb

theorem pay15_at (v0 : Vec Ideal S6x18 .f32) (v2 : FVec Ideal S1x18 .f32) (v3 : Vec Ideal S36x18 .f32)
    (v5 : FVec Ideal S1x18 .f32) (v20 : FVec Ideal S1024x6 .f32) (v40 : FVec Ideal S1024x18 .f32)
    (iv : Fin 6 → EReal) (bf bm u : Fin 18 → EReal) (hi : ∀ f, v20 (ix2 p f) = iv f)
    (hbf : ∀ j, v2 (ix2 (0 : Fin 1) j) = bf j) (hbm : ∀ j, v5 (ix2 (0 : Fin 1) j) = bm j)
    (h40 : ∀ j, v40 (ix2 p j) = u j) (q : Fin 18) :
    k0_pay15 v0 v2 v3 v5 v20 v40 (ix2 p q)
      = Ring.dense (Ring.cat2 ![u, Ring.dense iv (Ring.mat v0) bf]) (Ring.mat v3) bm q := by
  unfold k0_pay15
  exact Ring.Tile.dense_apply _ rfl rfl rfl rfl rfl rfl _ v3 v5 _ _ p q _ bm
    (Ring.Tile.cat2_apply v40 (k0_pay11 v0 v2 v20) _ p u _ h40 (pay11_at p v0 v2 v20 iv bf hi hbf)) hbm

theorem pay16_at (v0 : Vec Ideal S6x18 .f32) (v2 : FVec Ideal S1x18 .f32) (v3 : Vec Ideal S36x18 .f32)
    (v5 : FVec Ideal S1x18 .f32) (v20 v22 : FVec Ideal S1024x6 .f32)
    (iv3 iv4 : Fin 6 → EReal) (bf bm : Fin 18 → EReal) (hi3 : ∀ f, v20 (ix2 p f) = iv3 f)
    (hi4 : ∀ f, v22 (ix2 p f) = iv4 f) (hbf : ∀ j, v2 (ix2 (0 : Fin 1) j) = bf j)
    (hbm : ∀ j, v5 (ix2 (0 : Fin 1) j) = bm j) (q : Fin 18) :
    k0_pay16 v0 v2 v3 v5 v20 v22 (ix2 p q)
      = Ring.dense (Ring.cat2 ![Ring.dense iv3 (Ring.mat v0) bf, Ring.dense iv4 (Ring.mat v0) bf]) (Ring.mat v3) bm q := by
  unfold k0_pay16
  exact Ring.Tile.dense_apply _ rfl rfl rfl rfl rfl rfl _ v3 v5 _ _ p q _ bm
    (Ring.Tile.cat2_apply (k0_pay11 v0 v2 v20) (k0_pay12 v0 v2 v22) _ p _ _
      (pay11_at p v0 v2 v20 iv3 bf hi3 hbf) (pay12_at p v0 v2 v22 iv4 bf hi4 hbf)) hbm

/-! ## The first update's product, and the update bias -/

theorem pay17_at (v0 : Vec Ideal S6x18 .f32) (v2 : FVec Ideal S1x18 .f32) (v3 : Vec Ideal S36x18 .f32)
    (v5 : FVec Ideal S1x18 .f32) (v6 : Vec Ideal S54x18 .f32) (v22 : FVec Ideal S1024x6 .f32)
    (v28 : FVec Ideal S1024x18 .f32) (iv4 : Fin 6 → EReal) (bf bm h0 : Fin 18 → EReal)
    (hi4 : ∀ f, v22 (ix2 p f) = iv4 f) (hbf : ∀ j, v2 (ix2 (0 : Fin 1) j) = bf j)
    (hbm : ∀ j, v5 (ix2 (0 : Fin 1) j) = bm j) (h28 : ∀ j, v28 (ix2 p j) = h0 j) (q : Fin 18) :
    k0_pay17 v0 v2 v3 v5 v6 v22 v28 (ix2 p q)
      = ∑ k : Fin 54, Ring.cat3 ![Ring.dense (Ring.cat2 ![Ring.dense iv4 (Ring.mat v0) bf, h0]) (Ring.mat v3) bm, h0, h0] k
          * v6 (ix2 k q) := by
  unfold k0_pay17
  exact Ring.Tile.mat_apply _ rfl rfl rfl rfl rfl rfl _ v6 _ p q _
    (Ring.Tile.cat3_apply _ v28 v28 _ p _ h0 h0
      (fun j => Ring.Tile.dense_apply _ rfl rfl rfl rfl rfl rfl _ v3 v5 _ _ p j _ bm
        (Ring.Tile.cat2_apply (k0_pay12 v0 v2 v22) v28 _ p _ h0 (pay12_at p v0 v2 v22 iv4 bf hi4 hbf) h28) hbm)
      h28 h28)

theorem pay18_at (v8 : FVec Ideal S1x18 .f32) (bv : Fin 18 → EReal) (hb : ∀ j, v8 (ix2 (0 : Fin 1) j) = bv j)
    (q : Fin 18) : k0_pay18 v8 (ix2 p q) = bv q := by
  unfold k0_pay18; exact Ring.Tile.bias_apply v8 _ p q bv hb

/-! ## The updates and the readout -/

theorem pay1_at (v6 : Vec Ideal S54x18 .f32) (v8 : FVec Ideal S1x18 .f32) (v9 : Vec Ideal S90x1 .f32)
    (v11 : FVec Ideal S1x1 .f32) (v34 v40 v46 v52 v59 v66 v73 v80 v91 v92 : FVec Ideal S1024x18 .f32)
    (h M : Fin 5 → Fin 18 → EReal) (bu : Fin 18 → EReal) (br : EReal)
    (h34 : ∀ j, v34 (ix2 p j) = h 1 j) (h40 : ∀ j, v40 (ix2 p j) = h 2 j) (h46 : ∀ j, v46 (ix2 p j) = h 3 j)
    (h52 : ∀ j, v52 (ix2 p j) = h 4 j) (h59 : ∀ j, v59 (ix2 p j) = M 0 j) (h66 : ∀ j, v66 (ix2 p j) = M 1 j)
    (h73 : ∀ j, v73 (ix2 p j) = M 2 j) (h80 : ∀ j, v80 (ix2 p j) = M 3 j)
    (h91 : ∀ j, v91 (ix2 p j) = ∑ k : Fin 54, Ring.cat3 ![M 4, h 0, h 0] k * v6 (ix2 k j))
    (h92 : ∀ j, v92 (ix2 p j) = bu j) (hb : ∀ j, v8 (ix2 (0 : Fin 1) j) = bu j)
    (h11 : v11 (ix2 (0 : Fin 1) (0 : Fin 1)) = br) :
    k0_pay1 v6 v8 v9 v11 v34 v40 v46 v52 v59 v66 v73 v80 v91 v92 (ix2 p (0 : Fin 1))
      = Ring.readout (Ring.upd M h (Ring.mat v6) bu) (Ring.col v9) br := by
  unfold k0_pay1
  refine congrArg₂ (· + ·) (Ring.Tile.mat_apply _ rfl rfl rfl rfl rfl rfl _ v9 _ p (0 : Fin 1) _
    (Ring.Tile.cat5_apply _ _ _ _ _ _ p (Ring.upd M h (Ring.mat v6) bu) ?_ ?_ ?_ ?_ ?_))
    ((broadcastTo_1b_ab_apply v11 _ p (0 : Fin 1)).trans h11)
  · exact fun j => congrArg Ideal.tanh (congrArg₂ (· + ·) (h91 j) (h92 j))
  · exact fun j => Ring.Tile.dense_apply _ rfl rfl rfl rfl rfl rfl _ v6 v8 _ _ p j _ bu
      (Ring.Tile.cat3_apply v59 v34 v34 _ p (M 0) (h 1) (h 1) h59 h34 h34) hb
  · exact fun j => Ring.Tile.dense_apply _ rfl rfl rfl rfl rfl rfl _ v6 v8 _ _ p j _ bu
      (Ring.Tile.cat3_apply v66 v40 v40 _ p (M 1) (h 2) (h 2) h66 h40 h40) hb
  · exact fun j => Ring.Tile.dense_apply _ rfl rfl rfl rfl rfl rfl _ v6 v8 _ _ p j _ bu
      (Ring.Tile.cat3_apply v73 v46 v46 _ p (M 2) (h 3) (h 3) h73 h46 h46) hb
  · exact fun j => Ring.Tile.dense_apply _ rfl rfl rfl rfl rfl rfl _ v6 v8 _ _ p j _ bu
      (Ring.Tile.cat3_apply v80 v52 v52 _ p (M 3) (h 4) (h 4) h80 h52 h52) hb

/-! ## The whole stored value -/

/-- The value the body stores, over the nine loaded blocks. -/
def body (x0 : Vec Ideal S1024x5x6 .f32) (x1 : Vec Ideal S6x18 .f32) (x2 : Vec Ideal S18 .f32)
    (x3 : Vec Ideal S36x18 .f32) (x4 : Vec Ideal S18 .f32) (x5 : Vec Ideal S54x18 .f32) (x6 : Vec Ideal S18 .f32)
    (x7 : Vec Ideal S90x1 .f32) (x8 : Vec Ideal S1 .f32) : FVec Ideal S1024x1 .f32 :=
  k0_pay1 x5 (k0_pay4 x6) x7 (k0_pay5 x8) (k0_pay9 x1 x2 x0) (k0_pay10 x1 x2 x0)
    (k0_pay11 x1 (k0_pay2 x2) (k0_pay6 x0)) (k0_pay12 x1 (k0_pay2 x2) (k0_pay7 x0))
    (k0_pay13 x3 (k0_pay3 x4) (k0_pay8 x1 x2 x0) (k0_pay9 x1 x2 x0))
    (k0_pay14 x3 (k0_pay3 x4) (k0_pay9 x1 x2 x0) (k0_pay10 x1 x2 x0))
    (k0_pay15 x1 (k0_pay2 x2) x3 (k0_pay3 x4) (k0_pay6 x0) (k0_pay10 x1 x2 x0))
    (k0_pay16 x1 (k0_pay2 x2) x3 (k0_pay3 x4) (k0_pay6 x0) (k0_pay7 x0))
    (k0_pay17 x1 (k0_pay2 x2) x3 (k0_pay3 x4) x5 (k0_pay7 x0) (k0_pay8 x1 x2 x0)) (k0_pay18 (k0_pay4 x6))

/-- Entry `(p, 0)` of the stored value is the network on row `p` of the feature block. -/
theorem body_at (x0 : Vec Ideal S1024x5x6 .f32) (x1 : Vec Ideal S6x18 .f32) (x2 : Vec Ideal S18 .f32)
    (x3 : Vec Ideal S36x18 .f32) (x4 : Vec Ideal S18 .f32) (x5 : Vec Ideal S54x18 .f32) (x6 : Vec Ideal S18 .f32)
    (x7 : Vec Ideal S90x1 .f32) (x8 : Vec Ideal S1 .f32) :
    body x0 x1 x2 x3 x4 x5 x6 x7 x8 (ix2 p (0 : Fin 1))
      = Ring.net (Ring.nodes x0 p) (Ring.mat x1) (Ring.vec x2) (Ring.mat x3) (Ring.vec x4) (Ring.mat x5) (Ring.vec x6)
          (Ring.col x7) (x8 (ix1 (0 : Fin 1))) := by
  unfold body
  exact pay1_at p x5 (k0_pay4 x6) x7 (k0_pay5 x8) _ _ _ _ _ _ _ _ _ _
    (Ring.hid (Ring.nodes x0 p) (Ring.mat x1) (Ring.vec x2))
    (Ring.msg (Ring.hid (Ring.nodes x0 p) (Ring.mat x1) (Ring.vec x2)) (Ring.mat x3) (Ring.vec x4))
    (Ring.vec x6) (x8 (ix1 (0 : Fin 1)))
    (pay9_at p x1 x2 x0) (pay10_at p x1 x2 x0)
    (pay11_at p x1 (k0_pay2 x2) (k0_pay6 x0) _ _ (pay6_at p x0) (pay2_at x2))
    (pay12_at p x1 (k0_pay2 x2) (k0_pay7 x0) _ _ (pay7_at p x0) (pay2_at x2))
    (pay13_at p x3 (k0_pay3 x4) _ _ _ _ _ (pay8_at p x1 x2 x0) (pay9_at p x1 x2 x0) (pay3_at x4))
    (pay14_at p x3 (k0_pay3 x4) _ _ _ _ _ (pay9_at p x1 x2 x0) (pay10_at p x1 x2 x0) (pay3_at x4))
    (pay15_at p x1 (k0_pay2 x2) x3 (k0_pay3 x4) (k0_pay6 x0) _ _ _ _ _ (pay6_at p x0) (pay2_at x2) (pay3_at x4)
      (pay10_at p x1 x2 x0))
    (pay16_at p x1 (k0_pay2 x2) x3 (k0_pay3 x4) (k0_pay6 x0) (k0_pay7 x0) _ _ _ _ (pay6_at p x0) (pay7_at p x0)
      (pay2_at x2) (pay3_at x4))
    (pay17_at p x1 (k0_pay2 x2) x3 (k0_pay3 x4) x5 (k0_pay7 x0) _ _ _ _ _ (pay7_at p x0) (pay2_at x2) (pay3_at x4)
      (pay8_at p x1 x2 x0))
    (pay18_at p (k0_pay4 x6) _ (pay4_at x6)) (pay4_at x6) (pay5_at x8)

end Cert.KernelIdeal.Body

end
-- ==== Proof.KernelValue.lean ====
/-
  From the tile body to the whole result array.

  The grid has 256 points. Point `t` is handed rows `1024 t … 1024 t + 1023` of the feature array and the whole of
  every weight and bias array, and writes back rows `1024 t … 1024 t + 1023` of the result. So entry `(p, 0)` of what
  point `t` writes back — the network on row `p` of its feature block — is the network on row `1024 t + p` of the
  feature array: block `t` of the one whole-array function of the specification. The 256 blocks cover every row (row
  `r` lies in block `r / 1024`), so after the run the result array IS that function.
-/
import proofs.«111278_j43499428773982_2_alg».proof.Proof.Gen.KernelIdeal.Value
import proofs.«111278_j43499428773982_2_alg».proof.Proof.Payload

noncomputable section

namespace Cert.KernelIdeal.RingValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 256 points: the feature window and the result window move with the
    point along the rows; every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem pt_lt (t : Fin cfg0.N) : t.val < 256 := by
  have h := t.isLt
  have hN : cfg0.N = 256 := N_0
  omega

/-- The array row of point `t`'s block row `p`. -/
def rowOf (t : Fin cfg0.N) (p : Fin 1024) : Fin 262144 :=
  ⟨t.val * 1024 + p.val, by have := pt_lt t; have := p.isLt; omega⟩

/-! ## The input blocks -/

/-- Row `p` of point `t`'s feature block is row `1024 t + p` of the feature array. -/
theorem blk0 (c : Dev nD) (t : Fin cfg0.N) (p : Fin 1024) :
    Ring.nodes (iblk m c 0 t) p = Ring.nodes (V m c main_arg0) (rowOf t p) := by
  obtain ⟨e0, e1, e2, -⟩ := idx_facts t
  funext n f
  show V m c main_arg0 (((cfg0.win 0).blk t).view.emb (ix3 p n f)) = V m c main_arg0 (ix3 (rowOf t p) n f)
  refine congrArg _ (funext fun a => Fin.ext ?_)
  match a with
  | ⟨0, _⟩ => show win0_0.index t (0 : Fin 3) * 1024 + 1 * p.val = t.val * 1024 + p.val; rw [e0]; omega
  | ⟨1, _⟩ => show win0_0.index t (1 : Fin 3) * 5 + 1 * n.val = n.val; rw [e1]; omega
  | ⟨2, _⟩ => show win0_0.index t (2 : Fin 3) * 6 + 1 * f.val = f.val; rw [e2]; omega

/-- Every point is handed the whole of array 1. -/
theorem blk1 (c : Dev nD) (t : Fin cfg0.N) : Ring.mat (iblk m c 1 t) = Ring.mat (V m c main_arg1) := by
  have hf := idx_facts t
  funext k j
  show V m c main_arg1 (((cfg0.win 1).blk t).view.emb (ix2 k j)) = V m c main_arg1 (ix2 k j)
  refine congrArg _ (funext fun a => Fin.ext ?_)
  match a with
  | ⟨0, _⟩ => show win0_1.index t (0 : Fin 2) * 6 + 1 * k.val = k.val; have e : win0_1.index t (0 : Fin 2) = 0 := by tauto
              rw [e]; omega
  | ⟨1, _⟩ => show win0_1.index t (1 : Fin 2) * 18 + 1 * j.val = j.val; have e : win0_1.index t (1 : Fin 2) = 0 := by tauto
              rw [e]; omega

/-- Every point is handed the whole of array 3. -/
theorem blk3 (c : Dev nD) (t : Fin cfg0.N) : Ring.mat (iblk m c 3 t) = Ring.mat (V m c main_arg3) := by
  have hf := idx_facts t
  funext k j
  show V m c main_arg3 (((cfg0.win 3).blk t).view.emb (ix2 k j)) = V m c main_arg3 (ix2 k j)
  refine congrArg _ (funext fun a => Fin.ext ?_)
  match a with
  | ⟨0, _⟩ => show win0_3.index t (0 : Fin 2) * 36 + 1 * k.val = k.val; have e : win0_3.index t (0 : Fin 2) = 0 := by tauto
              rw [e]; omega
  | ⟨1, _⟩ => show win0_3.index t (1 : Fin 2) * 18 + 1 * j.val = j.val; have e : win0_3.index t (1 : Fin 2) = 0 := by tauto
              rw [e]; omega

/-- Every point is handed the whole of array 5. -/
theorem blk5 (c : Dev nD) (t : Fin cfg0.N) : Ring.mat (iblk m c 5 t) = Ring.mat (V m c main_arg5) := by
  have hf := idx_facts t
  funext k j
  show V m c main_arg5 (((cfg0.win 5).blk t).view.emb (ix2 k j)) = V m c main_arg5 (ix2 k j)
  refine congrArg _ (funext fun a => Fin.ext ?_)
  match a with
  | ⟨0, _⟩ => show win0_5.index t (0 : Fin 2) * 54 + 1 * k.val = k.val; have e : win0_5.index t (0 : Fin 2) = 0 := by tauto
              rw [e]; omega
  | ⟨1, _⟩ => show win0_5.index t (1 : Fin 2) * 18 + 1 * j.val = j.val; have e : win0_5.index t (1 : Fin 2) = 0 := by tauto
              rw [e]; omega

/-- Every point is handed the whole of array 2. -/
theorem blk2 (c : Dev nD) (t : Fin cfg0.N) : Ring.vec (iblk m c 2 t) = Ring.vec (V m c main_arg2) := by
  have hf := idx_facts t
  funext j
  show V m c main_arg2 (((cfg0.win 2).blk t).view.emb (ix1 j)) = V m c main_arg2 (ix1 j)
  refine congrArg _ (funext fun a => Fin.ext ?_)
  match a with
  | ⟨0, _⟩ => show win0_2.index t (0 : Fin 1) * 18 + 1 * j.val = j.val; have e : win0_2.index t (0 : Fin 1) = 0 := by tauto
              rw [e]; omega

/-- Every point is handed the whole of array 4. -/
theorem blk4 (c : Dev nD) (t : Fin cfg0.N) : Ring.vec (iblk m c 4 t) = Ring.vec (V m c main_arg4) := by
  have hf := idx_facts t
  funext j
  show V m c main_arg4 (((cfg0.win 4).blk t).view.emb (ix1 j)) = V m c main_arg4 (ix1 j)
  refine congrArg _ (funext fun a => Fin.ext ?_)
  match a with
  | ⟨0, _⟩ => show win0_4.index t (0 : Fin 1) * 18 + 1 * j.val = j.val; have e : win0_4.index t (0 : Fin 1) = 0 := by tauto
              rw [e]; omega

/-- Every point is handed the whole of array 6. -/
theorem blk6 (c : Dev nD) (t : Fin cfg0.N) : Ring.vec (iblk m c 6 t) = Ring.vec (V m c main_arg6) := by
  have hf := idx_facts t
  funext j
  show V m c main_arg6 (((cfg0.win 6).blk t).view.emb (ix1 j)) = V m c main_arg6 (ix1 j)
  refine congrArg _ (funext fun a => Fin.ext ?_)
  match a with
  | ⟨0, _⟩ => show win0_6.index t (0 : Fin 1) * 18 + 1 * j.val = j.val; have e : win0_6.index t (0 : Fin 1) = 0 := by tauto
              rw [e]; omega

/-- Every point is handed the whole readout column. -/
theorem blk7 (c : Dev nD) (t : Fin cfg0.N) : Ring.col (iblk m c 7 t) = Ring.col (V m c main_arg7) := by
  have hf := idx_facts t
  funext k
  show V m c main_arg7 (((cfg0.win 7).blk t).view.emb (ix2 k (0 : Fin 1))) = V m c main_arg7 (ix2 k (0 : Fin 1))
  refine congrArg _ (funext fun a => Fin.ext ?_)
  match a with
  | ⟨0, _⟩ => show win0_7.index t (0 : Fin 2) * 90 + 1 * k.val = k.val; have e : win0_7.index t (0 : Fin 2) = 0 := by tauto
              rw [e]; omega
  | ⟨1, _⟩ => show win0_7.index t (1 : Fin 2) * 1 + 1 * 0 = 0; have e : win0_7.index t (1 : Fin 2) = 0 := by tauto
              rw [e]

/-- Every point is handed the readout bias. -/
theorem blk8 (c : Dev nD) (t : Fin cfg0.N) :
    iblk m c 8 t (ix1 (0 : Fin 1)) = V m c main_arg8 (ix1 (0 : Fin 1)) := by
  have hf := idx_facts t
  show V m c main_arg8 (((cfg0.win 8).blk t).view.emb (ix1 (0 : Fin 1))) = V m c main_arg8 (ix1 (0 : Fin 1))
  refine congrArg _ (funext fun a => Fin.ext ?_)
  match a with
  | ⟨0, _⟩ => show win0_8.index t (0 : Fin 1) * 1 + 1 * 0 = 0; have e : win0_8.index t (0 : Fin 1) = 0 := by tauto
              rw [e]

/-! ## What a point writes back -/

/-- Entry `j` of the body's stored value at point `t` is the specification at the array index of `j` in block `t`. -/
theorem point_eq (c : Dev nD) (t : Fin cfg0.N) (j : S1024x1.Idx) :
    Body.body (iblk m c 0 t) (iblk m c 1 t) (iblk m c 2 t) (iblk m c 3 t) (iblk m c 4 t) (iblk m c 5 t) (iblk m c 6 t) (iblk m c 7 t) (iblk m c 8 t) j
      = Ring.G (V m c main_arg0) (V m c main_arg1) (V m c main_arg2) (V m c main_arg3) (V m c main_arg4) (V m c main_arg5) (V m c main_arg6) (V m c main_arg7) (V m c main_arg8) (((cfg0.win 9).blk t).view.emb j) := by
  obtain ⟨p, u, rfl⟩ : ∃ (p : Fin 1024) (u : Fin 1), j = ix2 p u := ⟨j 0, j 1, eq_ix2 j⟩
  obtain rfl : u = 0 := Subsingleton.elim u 0
  have hf := idx_facts t
  have e0 : win0_9.index t (0 : Fin 2) = t.val := by tauto
  have e1 : win0_9.index t (1 : Fin 2) = 0 := by tauto
  have he : ((cfg0.win 9).blk t).view.emb (ix2 p (0 : Fin 1)) = ix2 (rowOf t p) (0 : Fin 1) := by
    funext a; apply Fin.ext
    match a with
    | ⟨0, _⟩ => show win0_9.index t (0 : Fin 2) * 1024 + 1 * p.val = t.val * 1024 + p.val; rw [e0]; omega
    | ⟨1, _⟩ => show win0_9.index t (1 : Fin 2) * 1 + 1 * 0 = 0; rw [e1]
  refine (Body.body_at p (iblk m c 0 t) (iblk m c 1 t) (iblk m c 2 t) (iblk m c 3 t) (iblk m c 4 t) (iblk m c 5 t) (iblk m c 6 t) (iblk m c 7 t) (iblk m c 8 t)).trans ?_
  rw [he, Ring.G_ix2, blk0 m c t p, blk1 m c t, blk2 m c t, blk3 m c t, blk4 m c t, blk5 m c t, blk6 m c t, blk7 m c t,
    blk8 m c t]
  rfl

/-- WHAT POINT `t` WRITES BACK is block `t` of the specification of the argument arrays as the region finds them. -/
theorem flushed_eq (c : Dev nD) (t : Fin cfg0.N) :
    (dats m 0 c).flushed 9 t
      = ((cfg0.win 9).blk t).view.read (Elt Ideal) (Ring.G (V m c main_arg0) (V m c main_arg1) (V m c main_arg2) (V m c main_arg3) (V m c main_arg4) (V m c main_arg5) (V m c main_arg6) (V m c main_arg7) (V m c main_arg8)) := by
  rw [Value.flushed9]
  unfold out0_9
  rw [View.canon_unit_zero hz2]
  simp only [View.ld_unit_zero (S := S6x18) hz2, View.ld_unit_zero (S := S36x18) hz2, View.ld_unit_zero (S := S54x18) hz2,
    View.ld_unit_zero (S := S90x1) hz2, View.ld_unit_zero (S := S18) hz1, View.ld_unit_zero (S := S1) hz1,
    View.ld_unit_zero (S := S1024x5x6) hz3]
  funext j
  exact point_eq m c t j

/-! ## The cover and the array after the run -/

/-- An index of the result array is in point `t`'s block iff each coordinate is in the block's range on its axis. -/
theorem mem_blk (t : Fin cfg0.N) (i : S262144x1.Idx) :
    i ∈ ((cfg0.win 9).blk t).view.set ↔ ∀ a : Fin 2, win0_9.index t a * S1024x1.size a ≤ (i a).val
      ∧ (i a).val < win0_9.index t a * S1024x1.size a + S1024x1.size a := by
  show i ∈ ((View.whole main_v0).slice (win0_9.rect t)).set ↔ _
  rw [View.set_slice_whole, Rect.mem_set_unit]
  exact Iff.rfl

/-- Every index of the result array lies in some point's block: row `r` in block `r / 1024`. -/
theorem cover (i : S262144x1.Idx) :
    ∃ t : Fin cfg0.N, (cfg0.win 9).flush t = true ∧ i ∈ ((cfg0.win 9).blk t).view.set := by
  have h0 : (i 0).val < 262144 := (i 0).isLt
  have h1 : (i 1).val < 1 := (i 1).isLt
  have hN : cfg0.N = 256 := N_0
  let t : Fin cfg0.N := ⟨(i 0).val / 1024, by omega⟩
  have ht : t.val = (i 0).val / 1024 := rfl
  have hf := idx_facts t
  have e0 : win0_9.index t (0 : Fin 2) = t.val := by tauto
  have e1 : win0_9.index t (1 : Fin 2) = 0 := by tauto
  refine ⟨t, flush0_9 t, ?_⟩
  rw [mem_blk]
  intro a
  match a with
  | ⟨0, _⟩ =>
    show win0_9.index t (0 : Fin 2) * 1024 ≤ (i 0).val ∧ (i 0).val < win0_9.index t (0 : Fin 2) * 1024 + 1024
    rw [e0, ht]; omega
  | ⟨1, _⟩ =>
    show win0_9.index t (1 : Fin 2) * 1 ≤ (i 1).val ∧ (i 1).val < win0_9.index t (1 : Fin 2) * 1 + 1
    rw [e1]; omega

/-- THE RESULT ARRAY after the run is the specification of the argument arrays. -/
theorem final (c : Dev nD) :
    (dats m 0 c).arrAt 9 cfg0.N = Ring.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (Ring.G (V m c main_arg0) (V m c main_arg1) (V m c main_arg2) (V m c main_arg3) (V m c main_arg4) (V m c main_arg5) (V m c main_arg6) (V m c main_arg7) (V m c main_arg8)) (fun t _ => flushed_eq m c t) cover

/-- The kernel's run: the result array ends at the specification of the arguments, the arguments unchanged. -/
theorem run : θ_run defs (onTc (τ := τ) (main (F := Ideal))) ⟨m, fun _ => 0, ρ⟩ fun r => ∀ c : Dev nD,
      r.2.mem ((c : Thread nD τ).loc main_v0) = Ring.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.RingValue

end
-- ==== Proof.RefValue.lean ====
/-
  The reference's result is the specification.

  The reference keeps all five nodes of a row in one rank-3 array `[rows, 5, 18]` and moves along the ring by rotating
  the node axis: the array rotated by one position towards lower indices holds, at node `n`, the successor's vector
  (positions 1…4 followed by position 0); rotated the other way it holds the predecessor's (position 4 followed by
  0…3). Vectors are laid end to end along the last axis, so position `k` there reads piece `k / 18` at `k % 18`; the final
  reshape of `[rows, 5, 18]` to `[rows, 90]` reads position `k` of a row as node `k / 18`, unit `k % 18` — the same
  reading. Each stage of the reference, read at row `b`, node `n`, unit `j`, is therefore the specification's stage.
-/
import proofs.«111278_j43499428773982_2_alg».proof.Proof.RefRead
import proofs.«111278_j43499428773982_2_alg».proof.Proof.LibEndToEnd
import proofs.«111278_j43499428773982_2_alg».proof.Proof.RingSpec

noncomputable section

namespace Cert.ReferenceIdeal.RefValue

open Cert.ReferenceIdeal Cert.ReferenceIdeal.Gen Cert.ReferenceIdeal.ReadP Idealize.ShloMosaic Idealize.ShloMosaic.TcCoe
open Idealize.SL.Sem Idealize.ShloMosaic.StableHlo Idealize.ShloMosaic.ValueIdx

variable (b : Fin 262144) (n : Fin 5)

/-! ## The index maps of the read-at-an-index lemmas, at an index given by coordinates -/

theorem bias_idx (j : Fin 18) : idx_main_v1 (idx_main_v2 (ix3 b n j)) = ix1 j :=
  funext fun a => Fin.ext (by match a with | ⟨0, _⟩ => rfl)
theorem bias_idx' (j : Fin 18) : idx_main_v8 (idx_main_v9 (ix3 b n j)) = ix1 j :=
  funext fun a => Fin.ext (by match a with | ⟨0, _⟩ => rfl)
theorem bias_idx'' (j : Fin 18) : idx_main_v15 (idx_main_v16 (ix3 b n j)) = ix1 j :=
  funext fun a => Fin.ext (by match a with | ⟨0, _⟩ => rfl)
theorem l0 (j : Fin 18) (k : Fin 6) : lidx_main_v0 (ix3 b n j) k = ix3 b n k :=
  funext fun a => Fin.ext (by match a with | ⟨0, _⟩ => rfl | ⟨1, _⟩ => rfl | ⟨2, _⟩ => rfl)
theorem r0 (j : Fin 18) (k : Fin 6) : ridx_main_v0 (ix3 b n j) k = ix2 k j :=
  funext fun a => Fin.ext (by match a with | ⟨0, _⟩ => rfl | ⟨1, _⟩ => rfl)
theorem l7 (j : Fin 18) (k : Fin 36) : lidx_main_v7 (ix3 b n j) k = ix3 b n k :=
  funext fun a => Fin.ext (by match a with | ⟨0, _⟩ => rfl | ⟨1, _⟩ => rfl | ⟨2, _⟩ => rfl)
theorem r7 (j : Fin 18) (k : Fin 36) : ridx_main_v7 (ix3 b n j) k = ix2 k j :=
  funext fun a => Fin.ext (by match a with | ⟨0, _⟩ => rfl | ⟨1, _⟩ => rfl)
theorem l14 (j : Fin 18) (k : Fin 54) : lidx_main_v14 (ix3 b n j) k = ix3 b n k :=
  funext fun a => Fin.ext (by match a with | ⟨0, _⟩ => rfl | ⟨1, _⟩ => rfl | ⟨2, _⟩ => rfl)
theorem r14 (j : Fin 18) (k : Fin 54) : ridx_main_v14 (ix3 b n j) k = ix2 k j :=
  funext fun a => Fin.ext (by match a with | ⟨0, _⟩ => rfl | ⟨1, _⟩ => rfl)
theorem l20 (u : Fin 1) (k : Fin 90) : lidx_main_v20 (ix2 b u) k = ix2 b k :=
  funext fun a => Fin.ext (by match a with | ⟨0, _⟩ => rfl | ⟨1, _⟩ => rfl)
theorem r20 (k : Fin 90) : ridx_main_v20 (ix2 b (0 : Fin 1)) k = ix2 k (0 : Fin 1) :=
  funext fun a => Fin.ext (by match a with | ⟨0, _⟩ => rfl | ⟨1, _⟩ => rfl)
theorem br_idx : idx_main_v21 (idx_main_v22 (ix2 b (0 : Fin 1))) = ix1 (0 : Fin 1) :=
  funext fun a => Fin.ext (by match a with | ⟨0, _⟩ => rfl)

/-- Position `k` of a row of the flattened `[rows, 90]` array is node `k / 18`, unit `k % 18` of that row. -/
theorem flat_idx (k : Fin 90) :
    idx_main_v19 (ix2 b k)
      = ix3 b (⟨k.val / 18, by have := k.isLt; omega⟩ : Fin 5) (⟨k.val % 18, Nat.mod_lt _ (by decide)⟩ : Fin 18) :=
  funext fun a => Fin.ext (by
    have hb := b.isLt
    have hk := k.isLt
    match a with
    | ⟨0, _⟩ => show (b.val * 90 + k.val) / 90 = b.val; omega
    | ⟨1, _⟩ => show (b.val * 90 + k.val) / 18 % 5 = k.val / 18; omega
    | ⟨2, _⟩ => show (b.val * 90 + k.val) % 18 = k.val % 18; omega)

/-! ## Which piece, at a row and a node -/

theorem pick2 (A B : S262144x5x18.Idx → EReal) (u v : Fin 18 → EReal)
    (hA : ∀ j, A (ix3 b n j) = u j) (hB : ∀ j, B (ix3 b n j) = v j) (s : Fin 2) (j : Fin 18) :
    (![A, B] : Fin 2 → S262144x5x18.Idx → EReal) s (ix3 b n j) = (![u, v] : Fin 2 → Fin 18 → EReal) s j := by
  match s with
  | ⟨0, _⟩ => exact hA j
  | ⟨1, _⟩ => exact hB j

theorem pick3 (A B C : S262144x5x18.Idx → EReal) (u v w : Fin 18 → EReal)
    (hA : ∀ j, A (ix3 b n j) = u j) (hB : ∀ j, B (ix3 b n j) = v j) (hC : ∀ j, C (ix3 b n j) = w j) (s : Fin 3)
    (j : Fin 18) :
    (![A, B, C] : Fin 3 → S262144x5x18.Idx → EReal) s (ix3 b n j) = (![u, v, w] : Fin 3 → Fin 18 → EReal) s j := by
  match s with
  | ⟨0, _⟩ => exact hA j
  | ⟨1, _⟩ => exact hB j
  | ⟨2, _⟩ => exact hC j

/-! ## The stages -/

/-- The embedding of node `n` of row `b`. -/
theorem h_at (x0 : (⟨S262144x5x6, .f32⟩ : BufTy).Contents (Elt Ideal)) (x1 : (⟨S6x18, .f32⟩ : BufTy).Contents (Elt Ideal)) (x2 : (⟨S18, .f32⟩ : BufTy).Contents (Elt Ideal)) (j : Fin 18) :
    val_main_v4 (F := Ideal) x0 x1 x2 (ix3 b n j) = (Ring.hid (Ring.nodes x0 b) (Ring.mat x1) (Ring.vec x2)) n j := by
  rw [val_main_v4_apply, val_main_v3_apply, val_main_v0_apply, val_main_v2_apply, val_main_v1_apply]
  simp only [l0, r0, bias_idx]
  rfl

/-- The node axis rotated towards lower indices: at node `n`, the successor's entry. -/
theorem next_at (y : S262144x5x18.Idx → EReal) (j : Fin 18) :
    concatenate S262144x5x18 1
        [⟨S262144x4x18, extractStridedSlice S262144x4x18 ![0, 1, 0] y slices_S262144x5x18_S262144x4x18_0_1_0⟩,
         ⟨S262144x1x18, extractStridedSlice S262144x1x18 ![0, 0, 0] y slices_S262144x5x18_S262144x1x18_0_0_0⟩]
        concatenates_S262144x4x18_S262144x1x18_S262144x5x18_d1 (ix3 b n j)
      = y (ix3 b (Ring.nxt n) j) := by
  by_cases hn : n.val < 4
  · refine (EndToEnd.mid_left _ _ concatenates_S262144x4x18_S262144x1x18_S262144x5x18_d1 b n j hn).trans ?_
    refine extractStridedSlice_apply _ y _ _ _ fun a => ?_
    match a with
    | ⟨0, _⟩ => exact (Nat.zero_add _).symm
    | ⟨1, _⟩ => show (Ring.nxt n).val = 1 + n.val; unfold Ring.nxt; rw [dif_pos hn]; exact Nat.add_comm _ _
    | ⟨2, _⟩ => exact (Nat.zero_add _).symm
  · have h4 : n.val = 4 := by have := n.isLt; omega
    refine (EndToEnd.mid_right _ _ concatenates_S262144x4x18_S262144x1x18_S262144x5x18_d1 b n j (by omega)
      (by omega)).trans ?_
    refine extractStridedSlice_apply _ y _ _ _ fun a => ?_
    match a with
    | ⟨0, _⟩ => exact (Nat.zero_add _).symm
    | ⟨1, _⟩ => show (Ring.nxt n).val = 0 + (n.val - 4); unfold Ring.nxt; rw [dif_neg hn]; show 0 = 0 + (n.val - 4); omega
    | ⟨2, _⟩ => exact (Nat.zero_add _).symm

/-- The node axis rotated towards higher indices: at node `n`, the predecessor's entry. -/
theorem prev_at (y : S262144x5x18.Idx → EReal) (j : Fin 18) :
    concatenate S262144x5x18 1
        [⟨S262144x1x18, extractStridedSlice S262144x1x18 ![0, 4, 0] y slices_S262144x5x18_S262144x1x18_0_4_0⟩,
         ⟨S262144x4x18, extractStridedSlice S262144x4x18 ![0, 0, 0] y slices_S262144x5x18_S262144x4x18_0_0_0⟩]
        concatenates_S262144x1x18_S262144x4x18_S262144x5x18_d1 (ix3 b n j)
      = y (ix3 b (Ring.prv n) j) := by
  by_cases hn : n.val < 1
  · refine (EndToEnd.mid_left _ _ concatenates_S262144x1x18_S262144x4x18_S262144x5x18_d1 b n j hn).trans ?_
    refine extractStridedSlice_apply _ y _ _ _ fun a => ?_
    match a with
    | ⟨0, _⟩ => exact (Nat.zero_add _).symm
    | ⟨1, _⟩ => show (Ring.prv n).val = 4 + n.val; unfold Ring.prv; rw [dif_pos hn]; show 4 = 4 + n.val; omega
    | ⟨2, _⟩ => exact (Nat.zero_add _).symm
  · have hlt := n.isLt
    refine (EndToEnd.mid_right _ _ concatenates_S262144x1x18_S262144x4x18_S262144x5x18_d1 b n j (by omega)
      (by omega)).trans ?_
    refine extractStridedSlice_apply _ y _ _ _ fun a => ?_
    match a with
    | ⟨0, _⟩ => exact (Nat.zero_add _).symm
    | ⟨1, _⟩ => show (Ring.prv n).val = 0 + (n.val - 1); unfold Ring.prv; rw [dif_neg hn]; show n.val - 1 = 0 + (n.val - 1); omega
    | ⟨2, _⟩ => exact (Nat.zero_add _).symm

/-- The input of edge `n`'s message: the node's embedding and its successor's, end to end. -/
theorem min_at (x0 : (⟨S262144x5x6, .f32⟩ : BufTy).Contents (Elt Ideal)) (x1 : (⟨S6x18, .f32⟩ : BufTy).Contents (Elt Ideal)) (x2 : (⟨S18, .f32⟩ : BufTy).Contents (Elt Ideal)) (k : Fin 36) :
    val_main_v6 (F := Ideal) x0 x1 x2 (ix3 b n k) = Ring.cat2 ![(Ring.hid (Ring.nodes x0 b) (Ring.mat x1) (Ring.vec x2)) n, (Ring.hid (Ring.nodes x0 b) (Ring.mat x1) (Ring.vec x2)) (Ring.nxt n)] k := by
  unfold val_main_v6
  refine (EndToEnd.last3_apply (![val_main_v4 (F := Ideal) x0 x1 x2, val_main_v5 (F := Ideal) x0 x1 x2] :
      Fin 2 → S262144x5x18.Idx → EReal) concatenates_S262144x5x18_S262144x5x18_S262144x5x36_d2 (by decide) b n k
      ⟨k.val / 18, by have := k.isLt; omega⟩ rfl).trans ?_
  refine pick2 b n _ _ _ _ (h_at b n x0 x1 x2) (fun j => ?_) _ _
  unfold val_main_v5 val_main_call0_v0 val_main_call0_v1
  exact (next_at b n _ j).trans (h_at b (Ring.nxt n) x0 x1 x2 j)

/-- The message of edge `n` of row `b`. -/
theorem m_at (x0 : (⟨S262144x5x6, .f32⟩ : BufTy).Contents (Elt Ideal)) (x1 : (⟨S6x18, .f32⟩ : BufTy).Contents (Elt Ideal)) (x2 : (⟨S18, .f32⟩ : BufTy).Contents (Elt Ideal)) (x3 : (⟨S36x18, .f32⟩ : BufTy).Contents (Elt Ideal)) (x4 : (⟨S18, .f32⟩ : BufTy).Contents (Elt Ideal)) (j : Fin 18) :
    val_main_v11 (F := Ideal) x0 x1 x2 x3 x4 (ix3 b n j) = (Ring.msg (Ring.hid (Ring.nodes x0 b) (Ring.mat x1) (Ring.vec x2)) (Ring.mat x3) (Ring.vec x4)) n j := by
  rw [val_main_v11_apply, val_main_v10_apply, val_main_v7_apply, val_main_v9_apply, val_main_v8_apply]
  simp only [l7, r7, bias_idx', min_at]
  rfl

/-- The input of node `n`'s update: its predecessor's edge and its own embedding twice, end to end. -/
theorem uin_at (x0 : (⟨S262144x5x6, .f32⟩ : BufTy).Contents (Elt Ideal)) (x1 : (⟨S6x18, .f32⟩ : BufTy).Contents (Elt Ideal)) (x2 : (⟨S18, .f32⟩ : BufTy).Contents (Elt Ideal)) (x3 : (⟨S36x18, .f32⟩ : BufTy).Contents (Elt Ideal)) (x4 : (⟨S18, .f32⟩ : BufTy).Contents (Elt Ideal)) (k : Fin 54) :
    val_main_v13 (F := Ideal) x0 x1 x2 x3 x4 (ix3 b n k) = Ring.cat3 ![(Ring.msg (Ring.hid (Ring.nodes x0 b) (Ring.mat x1) (Ring.vec x2)) (Ring.mat x3) (Ring.vec x4)) (Ring.prv n), (Ring.hid (Ring.nodes x0 b) (Ring.mat x1) (Ring.vec x2)) n, (Ring.hid (Ring.nodes x0 b) (Ring.mat x1) (Ring.vec x2)) n] k := by
  unfold val_main_v13
  refine (EndToEnd.last3_apply (![val_main_v12 (F := Ideal) x0 x1 x2 x3 x4, val_main_v4 (F := Ideal) x0 x1 x2,
      val_main_v4 (F := Ideal) x0 x1 x2] : Fin 3 → S262144x5x18.Idx → EReal)
      concatenates_S262144x5x18_S262144x5x18_S262144x5x18_S262144x5x54_d2 (by decide) b n k
      ⟨k.val / 18, by have := k.isLt; omega⟩ rfl).trans ?_
  refine pick3 b n _ _ _ _ _ _ (fun j => ?_) (h_at b n x0 x1 x2) (h_at b n x0 x1 x2) _ _
  unfold val_main_v12 val_main_call1_v0 val_main_call1_v1
  exact (prev_at b n _ j).trans (m_at b (Ring.prv n) x0 x1 x2 x3 x4 j)

/-- The update of node `n` of row `b`. -/
theorem u_at (x0 : (⟨S262144x5x6, .f32⟩ : BufTy).Contents (Elt Ideal)) (x1 : (⟨S6x18, .f32⟩ : BufTy).Contents (Elt Ideal)) (x2 : (⟨S18, .f32⟩ : BufTy).Contents (Elt Ideal)) (x3 : (⟨S36x18, .f32⟩ : BufTy).Contents (Elt Ideal)) (x4 : (⟨S18, .f32⟩ : BufTy).Contents (Elt Ideal)) (x5 : (⟨S54x18, .f32⟩ : BufTy).Contents (Elt Ideal)) (x6 : (⟨S18, .f32⟩ : BufTy).Contents (Elt Ideal)) (j : Fin 18) :
    val_main_v18 (F := Ideal) x0 x1 x2 x3 x4 x5 x6 (ix3 b n j) = (Ring.upd (Ring.msg (Ring.hid (Ring.nodes x0 b) (Ring.mat x1) (Ring.vec x2)) (Ring.mat x3) (Ring.vec x4)) (Ring.hid (Ring.nodes x0 b) (Ring.mat x1) (Ring.vec x2)) (Ring.mat x5) (Ring.vec x6)) n j := by
  rw [val_main_v18_apply, val_main_v17_apply, val_main_v14_apply, val_main_v16_apply, val_main_v15_apply]
  simp only [l14, r14, bias_idx'', uin_at]
  rfl

/-- Position `k` of row `b` of the flattened updates. -/
theorem flat_at (x0 : (⟨S262144x5x6, .f32⟩ : BufTy).Contents (Elt Ideal)) (x1 : (⟨S6x18, .f32⟩ : BufTy).Contents (Elt Ideal)) (x2 : (⟨S18, .f32⟩ : BufTy).Contents (Elt Ideal)) (x3 : (⟨S36x18, .f32⟩ : BufTy).Contents (Elt Ideal)) (x4 : (⟨S18, .f32⟩ : BufTy).Contents (Elt Ideal)) (x5 : (⟨S54x18, .f32⟩ : BufTy).Contents (Elt Ideal)) (x6 : (⟨S18, .f32⟩ : BufTy).Contents (Elt Ideal)) (k : Fin 90) :
    val_main_v19 (F := Ideal) x0 x1 x2 x3 x4 x5 x6 (ix2 b k) = Ring.cat5 (Ring.upd (Ring.msg (Ring.hid (Ring.nodes x0 b) (Ring.mat x1) (Ring.vec x2)) (Ring.mat x3) (Ring.vec x4)) (Ring.hid (Ring.nodes x0 b) (Ring.mat x1) (Ring.vec x2)) (Ring.mat x5) (Ring.vec x6)) k := by
  rw [val_main_v19_apply, flat_idx, u_at]
  rfl

/-- THE REFERENCE'S RESULT is the specification of its arguments. -/
theorem result_eq (x0 : (⟨S262144x5x6, .f32⟩ : BufTy).Contents (Elt Ideal)) (x1 : (⟨S6x18, .f32⟩ : BufTy).Contents (Elt Ideal)) (x2 : (⟨S18, .f32⟩ : BufTy).Contents (Elt Ideal)) (x3 : (⟨S36x18, .f32⟩ : BufTy).Contents (Elt Ideal)) (x4 : (⟨S18, .f32⟩ : BufTy).Contents (Elt Ideal)) (x5 : (⟨S54x18, .f32⟩ : BufTy).Contents (Elt Ideal)) (x6 : (⟨S18, .f32⟩ : BufTy).Contents (Elt Ideal)) (x7 : (⟨S90x1, .f32⟩ : BufTy).Contents (Elt Ideal)) (x8 : (⟨S1, .f32⟩ : BufTy).Contents (Elt Ideal)) :
    val_main_v23 (F := Ideal) x0 x1 x2 x3 x4 x5 x6 x7 x8 = Ring.G x0 x1 x2 x3 x4 x5 x6 x7 x8 := by
  funext i
  obtain ⟨b, u, rfl⟩ : ∃ (b : Fin 262144) (u : Fin 1), i = ix2 b u := ⟨i 0, i 1, eq_ix2 i⟩
  obtain rfl : u = 0 := Subsingleton.elim u 0
  rw [Ring.G_ix2, val_main_v23_apply, val_main_v20_apply, val_main_v22_apply, val_main_v21_apply]
  simp only [l20, r20, br_idx, flat_at]
  rfl

end Cert.ReferenceIdeal.RefValue

end
-- ==== Proof.lean ====
/-
  A ring of five nodes with message passing, one row of the batch at a time: the kernel against its reference.

  Both programs compute, for each of 262144 batch rows, the same network on the extended reals. Every node's six
  features go through a dense layer with `tanh` into eighteen hidden units; every edge of the ring takes its two
  end nodes' hidden vectors, laid end to end, through a second dense layer; every node then takes the message of the
  edge arriving at it and its own hidden vector twice through a third; and the five updated vectors, laid end to end,
  are contracted with a readout column and shifted by a bias. The kernel does this tile by tile — 1024 rows per grid
  point, node by node, with its matrix products on operands narrowed to a shorter float format — and the reference on
  whole arrays, moving along the ring by rotating the node axis. At the ideal instance a change of float format is the
  identity and a matrix product is the plain sum over the contracted coordinate, so each side's result at row `b` is
  literally the same expression (`Ring.row`, in Proof/RingSpec.lean): the same products, summed over the same
  coordinate. No law of arithmetic beyond reindexing is used, and the inputs' finiteness is never opened.

  The three frames are the generated ones (the reference's is its run with the result forgotten); the idealization
  rewrote nothing, so `preserves` is trivial; `algebraic` sets the kernel's run (Proof/KernelValue.lean: the result array
  is `Ring.G` of the arguments) beside the reference's (Proof/RefValue.lean: its result term is `Ring.G` of its
  arguments) on memories that agree on the arguments.
-/
import proofs.«111278_j43499428773982_2_alg».proof.Defs
import proofs.«111278_j43499428773982_2_alg».proof.Proof.Gen.Kernel
import proofs.«111278_j43499428773982_2_alg».proof.Proof.Gen.Kernel.Frame
import proofs.«111278_j43499428773982_2_alg».proof.Proof.Gen.KernelIdeal
import proofs.«111278_j43499428773982_2_alg».proof.Proof.Gen.KernelIdeal.Frame
import proofs.«111278_j43499428773982_2_alg».proof.Proof.Gen.KernelIdeal.Value
import proofs.«111278_j43499428773982_2_alg».proof.Proof.Gen.ReferenceIdeal
import proofs.«111278_j43499428773982_2_alg».proof.Proof.Gen.Pre_finite_inputs
import proofs.«111278_j43499428773982_2_alg».proof.Proof.KernelValue
import proofs.«111278_j43499428773982_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the nine arguments, the kernel's result array and the reference's are both the
    specification's function of those arguments. -/
theorem algebraic : Cert.algebraic_KernelIdeal_ReferenceIdeal := by
  intro m ρ m' ρ' _ hagree
  refine ⟨_, Cert.KernelIdeal.RingValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8⟩ := hagree c
  rw [Cert.ReferenceIdeal.ReadP.val_main_v23_eq, Cert.ReferenceIdeal.RefValue.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
